-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128x40 .f32) (main_arg9 : FVec F S40 .f32) (main_arg10 : FVec F S128x40 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  let main_v44 : FVec F S128x40 .f32 := Host.absf main_arg10
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x40 .f32) (main_arg9 : FVec F S40 .f32) (main_arg10 : FVec F S128x40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x40 .f32) (main_arg9 : FVec F S40 .f32) (main_arg10 : FVec F S128x40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S4000x128 : Shape := ⟨2, ![4000, 128]⟩
abbrev S1x40 : Shape := ⟨2, ![1, 40]⟩
abbrev S100000x40 : Shape := ⟨2, ![100000, 40]⟩
abbrev S4000x40 : Shape := ⟨2, ![4000, 40]⟩

abbrev nBuf : Space → Nat
  | .hbm => 78
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x40, .f32⟩
  | .hbm, ⟨9, _⟩ => ⟨S40, .f32⟩
  | .hbm, ⟨10, _⟩ => ⟨S128x40, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000x1, .f32⟩
  | .hbm, ⟨17, _⟩ => ⟨S_, .f32⟩
  | .hbm, ⟨18, _⟩ => ⟨S100000x1, .f32⟩
  | .hbm, ⟨19, _⟩ => ⟨S1600000x1, .i32⟩
  | .hbm, ⟨20, _⟩ => ⟨S100000x1, .f32⟩
  | .hbm, ⟨21, _⟩ => ⟨S_, .f32⟩
  | .hbm, ⟨22, _⟩ => ⟨S100000x1, .f32⟩
  | .hbm, ⟨23, _⟩ => ⟨S100000x1, .f32⟩
  | .hbm, ⟨24, _⟩ => ⟨S_, .f32⟩
  | .hbm, ⟨25, _⟩ => ⟨S100000x1, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S1x40, .f32⟩
  | .hbm, ⟨77, _⟩ => ⟨S100000x40, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S128x40, .f32⟩
  | .local _ .vmem, ⟨23, _⟩ => ⟨S1x40, .f32⟩
  | .local _ .vmem, ⟨24, _⟩ => ⟨S128x40, .f32⟩
  | .local _ .vmem, ⟨25, _⟩ => ⟨S4000x40, .f32⟩
  | .local _ .vmem, ⟨26, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_c_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  inb_S4000x40_S4000x40_0_0 : ∀ a, (![0, 0] : Fin 2 → Nat) a + S4000x40.size a ≤ S4000x40.size a
  h_S4000x40 : 0 < S4000x40.numel
  scatter_S100000x1_S1600000x1_S1600000x1_1_0_0_1_wf : ScatterDims.WF S100000x1 S1600000x1 S1600000x1 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x40_S4000x40_1_0_0_1_n_n_wf : DotDims.WF S4000x128 S128x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x40.size a ≤ S128x40.size a
  hwx2_2 : ∀ i : grid2.Coords, EltTy.bits .f32 = 32 ∨ (Rect.block (s := S128x40) S128x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x40.size a ≤ S1x40.size a
  hwx2_3 : ∀ i : grid2.Coords, EltTy.bits .f32 = 32 ∨ (Rect.block (s := S1x40) S1x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x40.size a ≤ S128x40.size a
  hwx2_4 : ∀ i : grid2.Coords, EltTy.bits .f32 = 32 ∨ (Rect.block (s := S128x40) S128x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x40.size a ≤ S100000x40.size a
  hwx2_5 : ∀ i : grid2.Coords, EltTy.bits .f32 = 32 ∨ (Rect.block (s := S100000x40) S4000x40.size (cc2_transform_5 i) (hinb2_5 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf

abbrev win0_0 : Pipeline.Window sig grid0 :=
  Pipeline.Window.ofSpec (Memref.whole main_v23) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v51) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S4000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x40, .f32⟩
  | .hbm, ⟨9, _⟩ => ⟨S40, .f32⟩
  | .hbm, ⟨10, _⟩ => ⟨S128x40, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000x1, .f32⟩
  | .hbm, ⟨30, _⟩ => ⟨S_, .f32⟩
  | .hbm, ⟨31, _⟩ => ⟨S100000x1, .f32⟩
  | .hbm, ⟨32, _⟩ => ⟨S1600000x1, .i32⟩
  | .hbm, ⟨33, _⟩ => ⟨S100000x1, .f32⟩
  | .hbm, ⟨34, _⟩ => ⟨S_, .f32⟩
  | .hbm, ⟨35, _⟩ => ⟨S100000x1, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000x1, .f32⟩
  | .hbm, ⟨63, _⟩ => ⟨S_, .f32⟩
  | .hbm, ⟨64, _⟩ => ⟨S100000x1, .f32⟩
  | .hbm, ⟨65, _⟩ => ⟨S1600000x1, .i32⟩
  | .hbm, ⟨66, _⟩ => ⟨S100000x1, .f32⟩
  | .hbm, ⟨67, _⟩ => ⟨S_, .f32⟩
  | .hbm, ⟨68, _⟩ => ⟨S100000x1, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x128, .f32⟩
  | .hbm, ⟨90, _⟩ => ⟨S_, .f32⟩
  | .hbm, ⟨91, _⟩ => ⟨S100000x128, .f32⟩
  | .hbm, ⟨92, _⟩ => ⟨S1600000x1, .i32⟩
  | .hbm, ⟨93, _⟩ => ⟨S100000x128, .f32⟩
  | .hbm, ⟨94, _⟩ => ⟨S_, .f32⟩
  | .hbm, ⟨95, _⟩ => ⟨S1600000x1, .f32⟩
  | .hbm, ⟨96, _⟩ => ⟨S_, .f32⟩
  | .hbm, ⟨97, _⟩ => ⟨S100000x1, .f32⟩
  | .hbm, ⟨98, _⟩ => ⟨S1600000x1, .i32⟩
  | .hbm, ⟨99, _⟩ => ⟨S100000x1, .f32⟩
  | .hbm, ⟨100, _⟩ => ⟨S_, .f32⟩
  | .hbm, ⟨101, _⟩ => ⟨S100000x1, .f32⟩
  | .hbm, ⟨102, _⟩ => ⟨S100000x1, .f32⟩
  | .hbm, ⟨103, _⟩ => ⟨S100000x128, .f32⟩
  | .hbm, ⟨104, _⟩ => ⟨S100000x128, .f32⟩
  | .hbm, ⟨105, _⟩ => ⟨S100000x40, .f32⟩
  | .hbm, ⟨106, _⟩ => ⟨S1x40, .f32⟩
  | .hbm, ⟨107, _⟩ => ⟨S100000x40, .f32⟩
  | .hbm, ⟨108, _⟩ => ⟨S100000x40, .f32⟩
  | .hbm, ⟨109, _⟩ => ⟨S100000x40, .f32⟩
  | .hbm, ⟨110, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_cst : Ref sig .tc := ⟨.hbm, 45, rfl⟩
abbrev main_call0_v0 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_v53 : Ref sig .tc := ⟨.hbm, 80, rfl⟩
abbrev main_c_10 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_cst_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelRun.lean ====
/-
  The idealized kernel's run with its result array named.

  The program is three tiled dense steps with stretches of host operations before each. Every weakly fair execution
  terminates without a fault; at the end each buffer the cores do not scope holds the last boundary's contents, and
  the result buffer is one of the arrays the last tiled step writes: it holds what that step's write-backs leave,
  the fold of its grid points' blocks over the array as the step found it. The argument arrays end as launched.
-/
import proofs.«112400_j15479062135292_1_alg».proof.Proof.KernelIdealFrameP

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the array of the last step's output window. -/
theorem out_ref : Pipeline.arrRef spec2 5 = main_v53 := rfl

set_option backward.isDefEq.respectTransparency.types false in
/-- Every weakly fair execution ends with the result buffer at what the last tiled step's write-backs leave in its
    output array, entered at the contents the third host stretch produces, and the arguments as launched. -/
theorem run_out : θ_run defs (onTc (τ := τ) (main (F := F))) ⟨m, fun _ => 0, ρ⟩ (fun r => ∀ c : Dev nD,
      r.2.mem ((c.tc : Thread nD τ).loc main_v53) = (dat2 (V5 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v53 (by decide))).trans (W6_arr m ρ c 5),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.RunValue

end
-- ==== Proof.KernelTerms.lean ====
/-
  The host-side pieces of the kernel program, named.

  The edge list is a [2, E] array of integer words: row 0 names the node a message is read from, row 1 the node
  it is added to. A source word that reads negative is wrapped around by adding the number of nodes; both rows are
  laid out as [E, 1] columns. The in-degree column is an accumulating scatter of ones through the target column; its
  reciprocal is one over the larger of the degree and one. The neighbour sums of a feature array gather its rows
  through the source column and add them through the target column into zeros; the aggregate multiplies the sums, row
  by row, by a column of scales. A bias vector enters a tiled step reshaped to one row.
-/
import proofs.«112400_j15479062135292_1_alg».proof.Proof.Gen.KernelIdeal
import Idealize.ShloMosaic.PureOps.Ideal

noncomputable section

namespace Cert.KernelIdeal.Terms

open Cert.KernelIdeal Cert.KernelIdeal.Gen Idealize.ShloMosaic

/-- The edge list. -/
abbrev Edges := IVec S2x1600000 32
/-- One row of the edge list as a vector. -/
abbrev IVecE := IVec S1600000 32
/-- One row of the edge list as a column. -/
abbrev IColE := IVec S1600000x1 32
/-- A node feature array. -/
abbrev Feat := FVec Ideal S100000x128 .f32
/-- A per-node column. -/
abbrev Col := FVec Ideal S100000x1 .f32

/-- Row 0 of the edge list: the node each edge reads from. -/
def srcVec (e : Edges) : IVecE :=
  shapeCast _ (extractStridedSlice S1x1600000 ![0, 0] e slices_S2x1600000_S1x1600000_0_0) shapeCasts_S1x1600000_S1600000

/-- Row 1 of the edge list: the node each edge adds to. -/
def dstVec (e : Edges) : IVecE :=
  shapeCast _ (extractStridedSlice S1x1600000 ![1, 0] e slices_S2x1600000_S1x1600000_1_0) shapeCasts_S1x1600000_S1600000

/-- The source words, a negative one wrapped around by the number of nodes, as a column. -/
def srcCol (v1 : IVecE) : IColE :=
  broadcastInDim S1600000x1 ![0] bcast_S1600000_S1600000x1_0
    (select (cmpi .slt v1 (broadcastInDim S1600000 ![] bcast_S_S1600000 (constantI S_ 32 0#32)))
      (addi v1 (broadcastInDim S1600000 ![] bcast_S_S1600000 (constantI S_ 32 100000#32))) v1)

/-- The target words as a column. -/
def dstCol (v3 : IVecE) : IColE :=
  broadcastInDim S1600000x1 ![0] bcast_S1600000_S1600000x1_0 v3

/-- A column of ones. -/
def ones : Col :=
  broadcastInDim S100000x1 ![] bcast_S_S100000x1 (constant (F := Ideal) S_ .f32 0x3F800000#32)

/-- The in-degree of each node: ones added through the target column into zeros. -/
def deg (v3 : IVecE) : Col :=
  Host.scatterAdd (F := Ideal) scatter_S100000x1_S1600000x1_S1600000x1_1_0_0_1
    (broadcastInDim S100000x1 ![] bcast_S_S100000x1 (constant (F := Ideal) S_ .f32 0x00000000#32)) (dstCol v3)
    (broadcastInDim S1600000x1 ![] bcast_S_S1600000x1 (constant (F := Ideal) S_ .f32 0x3F800000#32))

/-- One over the larger of the in-degree and one. -/
def invDeg (v3 : IVecE) : Col :=
  Host.divf (F := Ideal) ones (maximumf (deg v3) ones)

/-- The neighbour sums of a feature array. -/
def sums (X : Feat) (v1 v3 : IVecE) : Feat :=
  Host.scatterAdd (F := Ideal) scatter_S100000x128_S1600000x1_S1600000x128_1_0_0_1
    (broadcastInDim S100000x128 ![] bcast_S_S100000x128 (constant (F := Ideal) S_ .f32 0x00000000#32)) (dstCol v3)
    (Host.gather gather_S100000x128_S1600000x1_S1600000x128_1_0_n_n_0_1_1128 X (srcCol v1))

/-- The neighbour sums scaled row by row by a column. -/
def agg (X : Feat) (v1 v3 : IVecE) (s : Col) : Feat :=
  mulf (sums X v1 v3) (broadcastInDim S100000x128 ![0, 1] bcast_S100000x1_S100000x128_0_1 s)

/-- A bias vector of 128 entries as one row. -/
def row128 (b : FVec Ideal S128 .f32) : FVec Ideal S1x128 .f32 :=
  shapeCast _ b shapeCasts_S128_S1x128

/-- A bias vector of 40 entries as one row. -/
def row40 (b : FVec Ideal S40 .f32) : FVec Ideal S1x40 .f32 :=
  shapeCast _ b shapeCasts_S40_S1x40

end Cert.KernelIdeal.Terms

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibDenseLayer.lean ====
/-
  One dense layer of the network, read at an entry of its result, on the extended reals.

  For a feature array h : [a, k], a weight matrix W : [k, n], a column of row scales S : [a, 1] and a row of
  biases B : [1, n] the layer computes the product P = h W and the affine form P * S + B, the scale taken per row and
  the bias per column.  The tile of a grid point spells this with the matrix unit's product of the operands rounded
  to bfloat16 (a change of format, which does nothing to an extended real), a column spread over the columns and a
  row spread over the rows; the host spells it with a dot_general and two broadcast_in_dim.  Both spellings are the
  same function of the four arrays, index by index: `prod` and `affine` below.

  Also here: a vector laid out as a column [a] -> [a, 1], or as a row [n] -> [1, n], is the same array whether it is
  written as a reshape or as a broadcast_in_dim; and adding three arrays does not depend on the grouping.
-/
import Idealize.ShloMosaic.Lib.Pipeline.Value
import Idealize.ShloMosaic.Lib.ValueIdx
import Idealize.ShloMosaic.Lib.ValueLayout
import Idealize.ShloMosaic.PureOps.Ideal.Laws
import proofs.«112400_j15479062135292_1_alg».proof.Proof.LibMatmulPlain
import proofs.«112400_j15479062135292_1_alg».proof.Proof.LibDotsNT
import proofs.«112400_j15479062135292_1_alg».proof.Proof.LibKeepdims

noncomputable section

open scoped BigOperators

namespace Cert.Dense

open Idealize.ShloMosaic Idealize.ShloMosaic.ValueIdx

variable {a k n : ℕ}

/-- The product of an [a, k] array and a [k, n] array at entry (r, q): the sum over c of h(r, c) * W(c, q). -/
def prod (h : (⟨2, ![a, k]⟩ : Shape).Idx → EReal) (W : (⟨2, ![k, n]⟩ : Shape).Idx → EReal) :
    (⟨2, ![a, n]⟩ : Shape).Idx → EReal :=
  fun i => ∑ c : Fin k, h (ix2 (i 0) c) * W (ix2 c (i 1))

/-- The product with row r scaled by S(r, 0) and B(0, q) added in column q. -/
def affine (h : (⟨2, ![a, k]⟩ : Shape).Idx → EReal) (W : (⟨2, ![k, n]⟩ : Shape).Idx → EReal)
    (S : (⟨2, ![a, 1]⟩ : Shape).Idx → EReal) (B : (⟨2, ![1, n]⟩ : Shape).Idx → EReal) :
    (⟨2, ![a, n]⟩ : Shape).Idx → EReal :=
  fun i => prod h W i * S (ix2 (i 0) (0 : Fin 1)) + B (ix2 (0 : Fin 1) (i 1))

/-- The product with B(0, q) added in column q (no row scale). -/
def biased (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => prod h W i + B (ix2 (0 : Fin 1) (i 1))

theorem prod_ix2 (h : (⟨2, ![a, k]⟩ : Shape).Idx → EReal) (W : (⟨2, ![k, n]⟩ : Shape).Idx → EReal) (r : Fin a) (q : Fin n) :
    prod h W (ix2 r q) = ∑ c : Fin k, h (ix2 r c) * W (ix2 c q) := rfl

section Products

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The matrix unit's product of the two operands rounded to bfloat16, into a zero accumulator, is the product. -/
theorem matmul_eq_prod (x0 : FVec Ideal ⟨2, ![a, k]⟩ .f32) (x1 : FVec Ideal ⟨2, ![k, n]⟩ .f32)
    (hb : FTy.bf16.bits < FTy.f32.bits) :
    matmul d none (truncf .bf16 x0 hb) (truncf .bf16 x1 hb) (constant (F := Ideal) ⟨2, ![a, n]⟩ .f32 0x00000000#32)
      = prod x0 x1 := by
  funext j
  obtain ⟨r, q, rfl⟩ : ∃ (r : Fin a) (q : Fin n), j = ix2 r q := ⟨j 0, j 1, eq_ix2 j⟩
  exact Cert.LibMatmulPlain.matmul_zero_apply d hlc hrc hln hrn hlb hrb none _ _ r q

include hlc hrc hln hrn hlb hrb in
/-- The host's dot_general is the product. -/
theorem dotGeneral_eq_prod (h : FVec Ideal ⟨2, ![a, k]⟩ .f32) (W : FVec Ideal ⟨2, ![k, n]⟩ .f32) :
    Host.dotGeneral (F := Ideal) d none h W = prod h W := by
  funext j
  obtain ⟨r, q, rfl⟩ : ∃ (r : Fin a) (q : Fin n), j = ix2 r q := ⟨j 0, j 1, eq_ix2 j⟩
  exact Cert.LibDotsNT.plain_dotGeneral_apply d hlc hrc hln hrn hlb hrb none .single h W r q

end Products

/-- The tile's spelling of the scale and the bias: the column cast to its own shape and spread over the columns, the
    row cast to its own shape and spread over the rows. -/
theorem tile_affine (P : FVec Ideal ⟨2, ![a, n]⟩ .f32) (x2 : FVec Ideal ⟨2, ![a, 1]⟩ .f32) (x3 : FVec Ideal ⟨2, ![1, n]⟩ .f32)
    (hc2 : (⟨2, ![a, 1]⟩ : Shape).ShapeCasts ⟨2, ![a, 1]⟩) (hb2 : (⟨2, ![a, 1]⟩ : Shape).Broadcasts ⟨2, ![a, n]⟩)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf (mulf P (broadcastTo ⟨2, ![a, n]⟩ (shapeCast ⟨2, ![a, 1]⟩ x2 hc2) hb2))
        (broadcastTo ⟨2, ![a, n]⟩ (shapeCast ⟨2, ![1, n]⟩ x3 hc3) hb3) (ix2 r q)
      = P (ix2 r q) * x2 (ix2 r (0 : Fin 1)) + x3 (ix2 (0 : Fin 1) q) := by
  rw [addf_apply, mulf_apply, Cert.LibKeepdims.row_spread_apply, Cert.LibKeepdims.broadcastTo_a1_ab_apply, shapeCast_self]

/-- The tile's spelling of the bias alone. -/
theorem tile_biased (P : FVec Ideal ⟨2, ![a, n]⟩ .f32) (x3 : FVec Ideal ⟨2, ![1, n]⟩ .f32)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf P (broadcastTo ⟨2, ![a, n]⟩ (shapeCast ⟨2, ![1, n]⟩ x3 hc3) hb3) (ix2 r q)
      = P (ix2 r q) + x3 (ix2 (0 : Fin 1) q) := by
  rw [addf_apply, Cert.LibKeepdims.row_spread_apply]

/-- A column [a, 1] laid over [a, n] by broadcast_in_dim along both axes reads, at (r, q), the column's entry of row r. -/
theorem bcast_col_apply {α : Type} (S : (⟨2, ![a, 1]⟩ : Shape).Idx → α)
    (hS : (⟨2, ![a, 1]⟩ : Shape).BroadcastsInDim ⟨2, ![a, n]⟩ ![0, 1]) (r : Fin a) (q : Fin n) :
    broadcastInDim ⟨2, ![a, n]⟩ ![0, 1] hS S (ix2 r q) = S (ix2 r (0 : Fin 1)) := by
  refine broadcastInDim_apply ![0, 1] hS S (ix2 r q) (ix2 r (0 : Fin 1)) fun ax => ?_
  match ax with
  | ⟨0, _⟩ =>
    show r.val = if a = 1 then 0 else r.val
    split
    · have := r.isLt; omega
    · rfl
  | ⟨1, _⟩ => rfl

/-- A row [1, n] laid over [a, n] by broadcast_in_dim along both axes reads, at (r, q), the row's entry of column q. -/
theorem bcast_row_apply {α : Type} (B : (⟨2, ![1, n]⟩ : Shape).Idx → α)
    (hB : (⟨2, ![1, n]⟩ : Shape).BroadcastsInDim ⟨2, ![a, n]⟩ ![0, 1]) (r : Fin a) (q : Fin n) :
    broadcastInDim ⟨2, ![a, n]⟩ ![0, 1] hB B (ix2 r q) = B (ix2 (0 : Fin 1) q) := by
  refine broadcastInDim_apply ![0, 1] hB B (ix2 r q) (ix2 (0 : Fin 1) q) fun ax => ?_
  match ax with
  | ⟨0, _⟩ => rfl
  | ⟨1, _⟩ =>
    show q.val = if n = 1 then 0 else q.val
    split
    · have := q.isLt; omega
    · rfl

/-- The host's spelling of the affine form is `affine`. -/
theorem host_affine (P : FVec Ideal ⟨2, ![a, n]⟩ .f32) (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) (r : Fin a) (q : Fin n) :
    addf (mulf P (broadcastInDim ⟨2, ![a, n]⟩ ![0, 1] hS S)) (broadcastInDim ⟨2, ![a, n]⟩ ![0, 1] hB B) (ix2 r q)
      = P (ix2 r q) * S (ix2 r (0 : Fin 1)) + B (ix2 (0 : Fin 1) q) := by
  rw [addf_apply, mulf_apply, bcast_col_apply, bcast_row_apply]

/-- The host's spelling of the bias alone. -/
theorem host_biased (P : FVec Ideal ⟨2, ![a, n]⟩ .f32) (B : FVec Ideal ⟨2, ![1, n]⟩ .f32)
    (hB : (⟨2, ![1, n]⟩ : Shape).BroadcastsInDim ⟨2, ![a, n]⟩ ![0, 1]) (r : Fin a) (q : Fin n) :
    addf P (broadcastInDim ⟨2, ![a, n]⟩ ![0, 1] hB B) (ix2 r q) = P (ix2 r q) + B (ix2 (0 : Fin 1) q) := by
  rw [addf_apply, bcast_row_apply]

section HostForms

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The affine form as the host spells it: the dot_general times the scale column laid over the columns, plus the bias
    row laid over the rows. -/
theorem affine_eq_host (h : FVec Ideal ⟨2, ![a, k]⟩ .f32) (W : FVec Ideal ⟨2, ![k, n]⟩ .f32)
    (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) :
    affine h W S B
      = addf (mulf (Host.dotGeneral (F := Ideal) d none h W) (broadcastInDim ⟨2, ![a, n]⟩ ![0, 1] hS S))
          (broadcastInDim ⟨2, ![a, n]⟩ ![0, 1] hB B) := by
  funext j
  obtain ⟨r, q, rfl⟩ : ∃ (r : Fin a) (q : Fin n), j = ix2 r q := ⟨j 0, j 1, eq_ix2 j⟩
  rw [host_affine, dotGeneral_eq_prod d hlc hrc hln hrn hlb hrb]
  rfl

include hlc hrc hln hrn hlb hrb in
/-- The biased form as the host spells it. -/
theorem biased_eq_host (h : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1]) :
    biased h W B
      = addf (Host.dotGeneral (F := Ideal) d none h W) (broadcastInDim ⟨2, ![a, n]⟩ ![0, 1] hB B) := by
  funext j
  obtain ⟨r, q, rfl⟩ : ∃ (r : Fin a) (q : Fin n), j = ix2 r q := ⟨j 0, j 1, eq_ix2 j⟩
  rw [host_biased, dotGeneral_eq_prod d hlc hrc hln hrn hlb hrb]
  rfl

end HostForms

/-- A vector laid out as a column: the reshape [a] -> [a, 1] and the broadcast_in_dim along axis 0 are one array. -/
theorem column_cast_eq_bcast {α : Type} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨r, u, rfl⟩ : ∃ (r : Fin a) (u : Fin 1), j = ix2 r u := ⟨j 0, j 1, eq_ix2 j⟩
  rw [Cert.LibKeepdims.shapeCast_a_a1_apply]
  refine (broadcastInDim_apply ![0] hb x (ix2 r u) (ix1 r) fun ax => ?_).symm
  match ax with
  | ⟨0, _⟩ =>
    show r.val = if a = 1 then 0 else r.val
    split
    · have := r.isLt; omega
    · rfl

/-- A vector laid out as a row: the reshape [n] -> [1, n] and the broadcast_in_dim along axis 1 are one array. -/
theorem row_cast_eq_bcast {α : Type} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  obtain ⟨u, q, rfl⟩ : ∃ (u : Fin 1) (q : Fin n), j = ix2 u q := ⟨j 0, j 1, eq_ix2 j⟩
  rw [shapeCast_a_1a_apply]
  refine (broadcastInDim_apply ![1] hb x (ix2 u q) (ix1 q) fun ax => ?_).symm
  match ax with
  | ⟨0, _⟩ =>
    show q.val = if n = 1 then 0 else q.val
    split
    · have := q.isLt; omega
    · rfl

/-- Adding three arrays: the grouping does not matter (addition of extended reals is associative). -/
theorem addf_assoc {s : Shape} {φ : FTy} (x y z : FVec Ideal s φ) : addf x (addf y z) = addf (addf x y) z := by
  funext i
  rw [addf_apply, addf_apply, addf_apply, addf_apply, add_assoc]

end Cert.Dense

end
-- ==== Proof.LibDenseBranch.lean ====
/-
  One dense branch of the network, read at an entry, over literal-free extents.

  For an [a, k] array h, a [k, n] weight W and a [1, n] bias row B:
    act h W B (r, q)              = max (sum over c of h(r, c) * W(c, q) + B(0, q)) 0      (the rectified layer)
    gate h W1 B1 W2 B2 (r, q)     = act h W1 B1 (r, q) * act h W2 B2 (r, q)               (the product branch)
  and the raw product h W (Cert.Dense.prod) feeds the edge aggregation.

  Each is spelt twice in the programs: on a tile of rows by the matrix unit (operands rounded to bfloat16, which
  on the extended reals changes nothing; the bias row and the zero spread over the tile), and on the whole array
  by the host's dot_general with the bias laid over the rows and a scalar zero laid over everything.  Both
  spellings are the functions above; and an entry of the whole array's function is the same function of the
  block of rows that holds it, since an entry of a product only reads its own row of h.
-/
import Idealize.ShloMosaic.Lib.Pipeline.Value
import Idealize.ShloMosaic.Lib.ValueIdx
import Idealize.ShloMosaic.Lib.ValueLayout
import Idealize.ShloMosaic.PureOps.Ideal.Laws
import proofs.«112400_j15479062135292_1_alg».proof.Proof.LibDenseLayer

noncomputable section

open scoped BigOperators

namespace Cert.Branch

open Idealize.ShloMosaic Idealize.ShloMosaic.ValueIdx

variable {a k n N : ℕ}

/-- The rectified dense layer at an entry: the larger of (h W + B)(r, q) and zero. -/
def act (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => max (Cert.Dense.biased h W B i) (Ideal.ofBits .f32 0x00000000#32)

/-- The product branch at an entry: two rectified layers of the same h, multiplied. -/
def gate (h : (⟨2, ![a, k]⟩ : Shape).Idx → EReal) (W1 : (⟨2, ![k, n]⟩ : Shape).Idx → EReal)
    (B1 : (⟨2, ![1, n]⟩ : Shape).Idx → EReal) (W2 : (⟨2, ![k, n]⟩ : Shape).Idx → EReal)
    (B2 : (⟨2, ![1, n]⟩ : Shape).Idx → EReal) : (⟨2, ![a, n]⟩ : Shape).Idx → EReal :=
  fun i => act h W1 B1 i * act h W2 B2 i

/-! ## An entry only reads its own row -/

/-- If row (j 0) of the block xb is row (i 0) of the array X, the weights agree and the columns agree, the
    product's entry j over the block is the product's entry i over the array. -/
theorem prod_at (X : (⟨2, ![N, k]⟩ : Shape).Idx → EReal) (W : (⟨2, ![k, n]⟩ : Shape).Idx → EReal)
    (xb : (⟨2, ![a, k]⟩ : Shape).Idx → EReal) (wb : (⟨2, ![k, n]⟩ : Shape).Idx → EReal)
    (j : (⟨2, ![a, n]⟩ : Shape).Idx) (i : (⟨2, ![N, n]⟩ : Shape).Idx)
    (hx : ∀ c : Fin k, xb (ix2 (j 0) c) = X (ix2 (i 0) c)) (hw : ∀ y, wb y = W y) (hq : j 1 = i 1) :
    Cert.Dense.prod xb wb j = Cert.Dense.prod X W i := by
  show ∑ c : Fin k, xb (ix2 (j 0) c) * wb (ix2 c (j 1)) = ∑ c : Fin k, X (ix2 (i 0) c) * W (ix2 c (i 1))
  refine Finset.sum_congr rfl fun c _ => ?_
  rw [hx c, hw, hq]

/-- The same for the rectified layer. -/
theorem act_at (X : (⟨2, ![N, k]⟩ : Shape).Idx → EReal) (W : (⟨2, ![k, n]⟩ : Shape).Idx → EReal)
    (B : (⟨2, ![1, n]⟩ : Shape).Idx → EReal)
    (xb : (⟨2, ![a, k]⟩ : Shape).Idx → EReal) (wb : (⟨2, ![k, n]⟩ : Shape).Idx → EReal)
    (bb : (⟨2, ![1, n]⟩ : Shape).Idx → EReal)
    (j : (⟨2, ![a, n]⟩ : Shape).Idx) (i : (⟨2, ![N, n]⟩ : Shape).Idx)
    (hx : ∀ c : Fin k, xb (ix2 (j 0) c) = X (ix2 (i 0) c)) (hw : ∀ y, wb y = W y) (hb : ∀ y, bb y = B y)
    (hq : j 1 = i 1) :
    act xb wb bb j = act X W B i := by
  show max (Cert.Dense.prod xb wb j + bb (ix2 (0 : Fin 1) (j 1))) _
      = max (Cert.Dense.prod X W i + B (ix2 (0 : Fin 1) (i 1))) _
  rw [prod_at X W xb wb j i hx hw hq, hb, hq]

/-- The same for the product branch. -/
theorem gate_at (X : (⟨2, ![N, k]⟩ : Shape).Idx → EReal) (W1 : (⟨2, ![k, n]⟩ : Shape).Idx → EReal)
    (B1 : (⟨2, ![1, n]⟩ : Shape).Idx → EReal) (W2 : (⟨2, ![k, n]⟩ : Shape).Idx → EReal)
    (B2 : (⟨2, ![1, n]⟩ : Shape).Idx → EReal)
    (xb : (⟨2, ![a, k]⟩ : Shape).Idx → EReal) (w1 : (⟨2, ![k, n]⟩ : Shape).Idx → EReal)
    (b1 : (⟨2, ![1, n]⟩ : Shape).Idx → EReal) (w2 : (⟨2, ![k, n]⟩ : Shape).Idx → EReal)
    (b2 : (⟨2, ![1, n]⟩ : Shape).Idx → EReal)
    (j : (⟨2, ![a, n]⟩ : Shape).Idx) (i : (⟨2, ![N, n]⟩ : Shape).Idx)
    (hx : ∀ c : Fin k, xb (ix2 (j 0) c) = X (ix2 (i 0) c)) (hw1 : ∀ y, w1 y = W1 y) (hb1 : ∀ y, b1 y = B1 y)
    (hw2 : ∀ y, w2 y = W2 y) (hb2 : ∀ y, b2 y = B2 y) (hq : j 1 = i 1) :
    gate xb w1 b1 w2 b2 j = gate X W1 B1 W2 B2 i := by
  show act xb w1 b1 j * act xb w2 b2 j = act X W1 B1 i * act X W2 B2 i
  rw [act_at X W1 B1 xb w1 b1 j i hx hw1 hb1 hq, act_at X W2 B2 xb w2 b2 j i hx hw2 hb2 hq]

/-! ## The tile's spelling and the host's spelling -/

section Spellings

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- On a tile: the matrix unit's product into zero, plus the bias row spread over the rows, against a zero
    spread over the tile, is the rectified layer. -/
theorem tile_act (x : FVec Ideal ⟨2, ![a, k]⟩ .f32) (W : FVec Ideal ⟨2, ![k, n]⟩ .f32)
    (b : FVec Ideal ⟨2, ![1, n]⟩ .f32) (hb : FTy.bf16.bits < FTy.f32.bits)
    (hc3 : (⟨2, ![1, n]⟩ : Shape).ShapeCasts ⟨2, ![1, n]⟩) (hb3 : (⟨2, ![1, n]⟩ : Shape).Broadcasts ⟨2, ![a, n]⟩) :
    maximumf (addf (matmul d none (truncf .bf16 x hb) (truncf .bf16 W hb)
          (constant (F := Ideal) ⟨2, ![a, n]⟩ .f32 0x00000000#32))
        (broadcastTo ⟨2, ![a, n]⟩ (shapeCast ⟨2, ![1, n]⟩ b hc3) hb3))
      (broadcast ⟨2, ![a, n]⟩ (Scalar.ofBits (F := Ideal) .f32 0x00000000#32))
      = act x W b := by
  funext i
  obtain ⟨r, q, rfl⟩ : ∃ (r : Fin a) (q : Fin n), i = ix2 r q := ⟨i 0, i 1, eq_ix2 i⟩
  refine congrArg (fun z : EReal => max z (Ideal.ofBits .f32 0x00000000#32)) ?_
  rw [Cert.Dense.matmul_eq_prod d hlc hrc hln hrn hlb hrb x W hb]
  exact Cert.Dense.tile_biased _ b hc3 hb3 r q

include hlc hrc hln hrn hlb hrb in
/-- On the whole array: the host's dot_general plus the bias row laid over the rows, against a scalar zero laid
    over everything, is the rectified layer. -/
theorem host_act (X : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1])
    (h0 : (⟨0, ![]⟩ : Shape).BroadcastsInDim ⟨2, ![a, n]⟩ ![]) :
    maximumf (addf (Host.dotGeneral (F := Ideal) d none X W) (broadcastInDim ⟨2, ![a, n]⟩ ![0, 1] hB B))
      (broadcastInDim ⟨2, ![a, n]⟩ ![] h0 (constant (F := Ideal) ⟨0, ![]⟩ .f32 0x00000000#32))
      = act X W B := by
  funext i
  obtain ⟨r, q, rfl⟩ : ∃ (r : Fin a) (q : Fin n), i = ix2 r q := ⟨i 0, i 1, eq_ix2 i⟩
  refine congrArg (fun z : EReal => max z (Ideal.ofBits .f32 0x00000000#32)) ?_
  rw [Cert.Dense.dotGeneral_eq_prod d hlc hrc hln hrn hlb hrb X W]
  exact Cert.Dense.host_biased _ B hB r q

end Spellings

end Cert.Branch

end
-- ==== Proof.LibRealSums.lean ====
/-
  The extended reals that are real numbers. They are closed under the operations of the ideal instance that a
  sum-and-scale computation uses (sum, product, maximum, finite sums, the quotient of one by a real that is at least one),
  the bit patterns of zero and of one denote them, and over them a scaled aggregate of matrix products is the matrix
  product of the scaled aggregate: the distributive law, which fails over the extended reals at large (a sum that meets
  both infinities) and holds as soon as every entry is a real number.
-/
import Idealize.ShloMosaic.PureOps.Ideal
import Idealize.ShloMosaic.PureOps.Ideal.Laws
import Idealize.ShloMosaic.Lib.IdealHost
import Mathlib.Algebra.BigOperators.Ring.Finset
import Mathlib.Tactic.Ring
import Mathlib.Tactic.Linarith

namespace Cert.LibRealSums

open Idealize.ShloMosaic

/-- An extended real that is a real number: neither infinity. -/
def IsReal (x : EReal) : Prop := ∃ r : ℝ, x = (r : EReal)

/-- A real number, seen as an extended real, is a real number. -/
theorem isReal_coe (r : ℝ) : IsReal (r : EReal) := ⟨r, rfl⟩

/-- Zero is a real number. -/
theorem isReal_zero : IsReal 0 := ⟨0, EReal.coe_zero.symm⟩

/-- One is a real number. -/
theorem isReal_one : IsReal 1 := ⟨1, EReal.coe_one.symm⟩

/-- The sum of two real numbers is a real number. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is a real number. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The larger of two real numbers is a real number: it is one of the two. -/
theorem isReal_max {x y : EReal} (hx : IsReal x) (hy : IsReal y) : IsReal (max x y) := by
  rcases le_total x y with h | h
  · rw [max_eq_right h]; exact hy
  · rw [max_eq_left h]; exact hx

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The single-precision pattern of zero denotes zero. -/
theorem ofBits_zero : Ideal.ofBits .f32 0x00000000#32 = 0 := Ideal.ofBits_zero_f32

/-- The single-precision pattern `0x3F800000` denotes one. -/
theorem ofBits_one : Ideal.ofBits .f32 0x3F800000#32 = 1 := Ideal.ofBits_one_f32

/-- The single-precision pattern of zero denotes a real number. -/
theorem isReal_ofBits_zero : IsReal (Ideal.ofBits .f32 0x00000000#32) := by
  rw [ofBits_zero]; exact isReal_zero

/-- The single-precision pattern of one denotes a real number. -/
theorem isReal_ofBits_one : IsReal (Ideal.ofBits .f32 0x3F800000#32) := by
  rw [ofBits_one]; exact isReal_one

/-- The inverse degree: the quotient of one by the larger of a real number and one is a real number. The divisor is a
    real that is at least one, so it is not zero, and the quotient is the product with its reciprocal. -/
theorem isReal_invDeg (d : EReal) (hd : IsReal d) : IsReal (Ideal.div 1 (max d 1)) := by
  obtain ⟨m, hm⟩ := isReal_max hd isReal_one
  have h1 : (1 : ℝ) ≤ m := by
    have h : ((1 : ℝ) : EReal) ≤ (m : EReal) := by
      rw [← hm, EReal.coe_one]; exact le_max_right _ _
    exact EReal.coe_le_coe_iff.1 h
  have hne : m ≠ 0 := by linarith
  rw [hm, Ideal.div_coe hne, one_mul]
  exact isReal_coe _

/-- The distributive law of the aggregation. Over real entries, the sum over a set `S` of rows of the matrix products
    `∑ k, a e k * w k`, scaled by `v`, is the matrix product of the scaled sum of the rows: both are the double sum of
    `a e k * v * w k`. The leading zeros are the initial values the two sums start from. -/
theorem agg_law {ι κ : Type} [Fintype κ] (S : Finset ι) (a : ι → κ → EReal) (w : κ → EReal) (v : EReal)
    (ha : ∀ e k, IsReal (a e k)) (hw : ∀ k, IsReal (w k)) (hv : IsReal v) :
    (0 + ∑ e ∈ S, ∑ k, a e k * w k) * v = ∑ k, ((0 + ∑ e ∈ S, a e k) * v) * w k := by
  choose ar har using ha
  choose wr hwr using hw
  obtain ⟨vr, rfl⟩ := hv
  obtain rfl : a = fun e k => (ar e k : EReal) := funext fun e => funext fun k => har e k
  obtain rfl : w = fun k => (wr k : EReal) := funext hwr
  simp only [zero_add, ← EReal.coe_mul, ← coe_sum]
  congr 1
  simp only [Finset.sum_mul]
  rw [Finset.sum_comm]
  exact Finset.sum_congr rfl fun k _ => Finset.sum_congr rfl fun e _ => by ring

end Cert.LibRealSums
-- ==== Proof.LibConcatCols.lean ====
/-
  Two matrices joined side by side, read at an entry. For a [K, N₁] matrix and a [K, N₂] matrix concatenated along
  the column axis into a [K, N] matrix, the entry in column q is the left matrix's entry in column q when q < N₁, and the
  right matrix's entry in column q - N₁ otherwise. Consequently a sum over k of x(r, k) * joined(k, q) is the same sum
  against the one matrix the column q falls in: a product with the joined matrix, cut back into its two column ranges,
  is the two products.
-/
import Idealize.ShloMosaic.PureOps.Ideal
import Idealize.ShloMosaic.Lib.Pipeline.Value
import Idealize.ShloMosaic.Lib.ValueIdx

noncomputable section

open scoped BigOperators

namespace Cert.LibConcatCols

open Idealize.ShloMosaic Idealize.ShloMosaic.ValueIdx

variable {α : Type} {K N₁ N₂ N : Nat}

/-- A column of the joined matrix that lies in the left matrix's range is that matrix's column. -/
theorem cols_left (a : (⟨2, ![K, N₁]⟩ : Shape).Idx → α) (b : (⟨2, ![K, N₂]⟩ : Shape).Idx → α)
    (h : Shape.Concatenates [(⟨2, ![K, N₁]⟩ : Shape), ⟨2, ![K, N₂]⟩] ⟨2, ![K, N]⟩ 1)
    (k : Fin K) (q : Fin N) (q' : Fin N₁) (hq : q'.val = q.val) :
    concatenate ⟨2, ![K, N]⟩ 1 [⟨⟨2, ![K, N₁]⟩, a⟩, ⟨⟨2, ![K, N₂]⟩, b⟩] h (ix2 k q) = a (ix2 k q') := by
  refine concatenate_pair_apply_left 1 a b h (ix2 k q) rfl (ix2 k q') fun d => ?_
  match d with
  | ⟨0, _⟩ => rfl
  | ⟨1, _⟩ => exact hq

/-- A column past the left matrix's range is the right matrix's column, the left width less. -/
theorem cols_right (a : (⟨2, ![K, N₁]⟩ : Shape).Idx → α) (b : (⟨2, ![K, N₂]⟩ : Shape).Idx → α)
    (h : Shape.Concatenates [(⟨2, ![K, N₁]⟩ : Shape), ⟨2, ![K, N₂]⟩] ⟨2, ![K, N]⟩ 1)
    (k : Fin K) (q : Fin N) (q' : Fin N₂) (hq : q'.val + N₁ = q.val) :
    concatenate ⟨2, ![K, N]⟩ 1 [⟨⟨2, ![K, N₁]⟩, a⟩, ⟨⟨2, ![K, N₂]⟩, b⟩] h (ix2 k q) = b (ix2 k q') := by
  refine concatenate_pair_apply_right 1 a b h (ix2 k q) rfl rfl (ix2 k q') (fun d hd => ?_) hq
  match d with
  | ⟨0, _⟩ => rfl
  | ⟨1, _⟩ => exact absurd rfl hd

/-- A row of x against a left-range column of the joined matrix is that row against the left matrix's column. -/
theorem sum_cols_left {M : Nat} (x : (⟨2, ![M, K]⟩ : Shape).Idx → EReal)
    (a : (⟨2, ![K, N₁]⟩ : Shape).Idx → EReal) (b : (⟨2, ![K, N₂]⟩ : Shape).Idx → EReal)
    (h : Shape.Concatenates [(⟨2, ![K, N₁]⟩ : Shape), ⟨2, ![K, N₂]⟩] ⟨2, ![K, N]⟩ 1)
    (r : Fin M) (q : Fin N) (q' : Fin N₁) (hq : q'.val = q.val) :
    ∑ k : Fin K, x (ix2 r k) * concatenate ⟨2, ![K, N]⟩ 1 [⟨⟨2, ![K, N₁]⟩, a⟩, ⟨⟨2, ![K, N₂]⟩, b⟩] h (ix2 k q)
      = ∑ k : Fin K, x (ix2 r k) * a (ix2 k q') :=
  Finset.sum_congr rfl fun k _ => by rw [cols_left a b h k q q' hq]

/-- A row of x against a right-range column of the joined matrix is that row against the right matrix's column. -/
theorem sum_cols_right {M : Nat} (x : (⟨2, ![M, K]⟩ : Shape).Idx → EReal)
    (a : (⟨2, ![K, N₁]⟩ : Shape).Idx → EReal) (b : (⟨2, ![K, N₂]⟩ : Shape).Idx → EReal)
    (h : Shape.Concatenates [(⟨2, ![K, N₁]⟩ : Shape), ⟨2, ![K, N₂]⟩] ⟨2, ![K, N]⟩ 1)
    (r : Fin M) (q : Fin N) (q' : Fin N₂) (hq : q'.val + N₁ = q.val) :
    ∑ k : Fin K, x (ix2 r k) * concatenate ⟨2, ![K, N]⟩ 1 [⟨⟨2, ![K, N₁]⟩, a⟩, ⟨⟨2, ![K, N₂]⟩, b⟩] h (ix2 k q)
      = ∑ k : Fin K, x (ix2 r k) * b (ix2 k q') :=
  Finset.sum_congr rfl fun k _ => by rw [cols_right a b h k q q' hq]

end Cert.LibConcatCols

end
-- ==== Proof.LibAggRows.lean ====
/-
  ROWS OF A TABLE READ AND ACCUMULATED THROUGH AN INDEX COLUMN, AT AN ENTRY.

  Two host operations over a table of `N` rows and `C` columns and a column of `E` integer words (held as an
  `[E, 1]` array):
    • the ROW GATHER `table[idx]`: result row `e` is the table's row at the `e`-th word, read as a signed integer
      and clamped into `[0, N − 1]` (`srcRow`, `rowGather_apply`);
    • the ROW SCATTER-ADD `zeros.at[idx].add(rows)` over the extended reals: entry `(i, c)` of the result is the
      operand's entry plus the sum of the entries `(e, c)` of the update rows whose word, read as a signed integer
      and NOT clamped, is `i`; a word outside `[0, N)` drops its row (`dstRow?`, `rowScatterAdd_apply`).
  Every statement is over the extents `N`, `E`, `C` and the word width `w` as variables.
-/
import Idealize.ShloMosaic.PureOps.Ideal
import Idealize.ShloMosaic.Lib.ValueIdx

noncomputable section

open scoped BigOperators

namespace Cert.LibAggRows

open Idealize.ShloMosaic Idealize.ShloMosaic.ValueIdx

/-! ## The row gather

Operand `[N, C]`, start indices `[E, 1]`, result `[E, C]`; the operand's axis 0 is collapsed and is the one the start
index names, its axis 1 is kept whole (slice sizes `[1, C]`) and is the result's offset axis 1; the index vector lies
along the start indices' axis 1. -/

section Gather
variable {α : Type}

/-- The row gather's dimension numbers for an operand `[N, C]`, start indices `[E, 1]` and result `[E, C]`; their
    conditions `wf` are decided on literal extents. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row that result row `e` reads: the `e`-th start index, read as a signed integer and clamped into
    `[0, N − 1]` (a negative word reads row `0`, a word at or above `N` reads row `N − 1`). It depends on neither
    the number of columns nor the table's contents. -/
def srcRow {E w : Nat} (N : Nat) (hN : 0 < N) (idx : IVec ⟨2, ![E, 1]⟩ w) (e : Fin E) : Fin N :=
  ⟨min (idx (ix2 e (0 : Fin 1))).toInt.toNat (N - 1), by omega⟩

/-- On the operand's axis 0 (collapsed, named by the start index map) the operand index of result entry `(e, c)` is
    the clamped start index: no batching coordinate, no offset. -/
theorem rowGather_operandIdx0 {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx 0 = srcRow N hN idx e := by
  refine Fin.ext ?_
  show (rowGatherDims N E C wf).start (ix2 e c) idx 0 + (rowGatherDims N E C wf).batchCoord (ix2 e c) 0
    + (rowGatherDims N E C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e c) ⟨List.idxOf (0 : Fin 2) (rowGatherDims N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the operand's axis 1 (kept whole, not named by the start index map) the operand index of result entry
    `(e, c)` is the result's column `c`: start `0`, no batching coordinate, offset `c`. -/
theorem rowGather_operandIdx1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx 1 = c := by
  refine Fin.ext ?_
  show (rowGatherDims N E C wf).start (ix2 e c) idx 1 + (rowGatherDims N E C wf).batchCoord (ix2 e c) 1
    + (rowGatherDims N E C wf).offCoord (ix2 e c) 1 = _
  have hk : (1 : Fin 2) ∈ (rowGatherDims N E C wf).sKept :=
    (GatherDims.mem_sKept _ _).mpr ⟨(by decide : (1 : Fin 2) ∉ [0]), List.not_mem_nil⟩
  rw [GatherDims.batchCoord_eq_zero _ _ _ List.not_mem_nil]
  unfold GatherDims.start GatherDims.offCoord
  rw [dif_neg (show (1 : Fin 2) ∉ (rowGatherDims N E C wf).startIndexMap from (by decide : (1 : Fin 2) ∉ [0])), dif_pos hk]
  simp only [Nat.add_zero, Nat.zero_add]
  rfl

/-- THE ROW GATHER READ AT `(e, c)`: the table's entry in column `c` of the row `srcRow N hN idx e`, the `e`-th start
    index read signed and clamped into `[0, N − 1]`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (srcRow N hN idx e) c) := by
  unfold Host.gather
  rw [eq_ix2 ((rowGatherDims N E C wf).operandIdx (ix2 e c) idx), rowGather_operandIdx0 hN wf idx e c,
    rowGather_operandIdx1 wf idx e c]
  rfl

end Gather

/-! ## The row scatter-add, over the extended reals

Operand `[N, C]`, scatter indices `[E, 1]`, updates `[E, C]`; the operand's axis 0 is inserted and is the one the
scatter index names, the updates' axis 1 is the window axis and goes to the operand's axis 1; the index vector lies along
the scatter indices' axis 1. -/

section ScatterAdd

/-- Two rank-2 indices with equal coordinates are equal. -/
theorem idx2_ext {n0 n1 : Nat} (f g : (⟨2, ![n0, n1]⟩ : Shape).Idx) (h0 : f 0 = g 0) (h1 : f 1 = g 1) : f = g := by
  rw [eq_ix2 f, eq_ix2 g, h0, h1]

/-- The row scatter's dimension numbers for an operand `[N, C]`, scatter indices `[E, 1]` and updates `[E, C]`; their
    conditions `wf` are decided on literal extents. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The operand row that update row `e` is added to: the `e`-th scatter index read as a signed integer, NOT clamped,
    when it lies in `[0, N)`; `none` when it does not (the row is dropped). It depends on neither the number of
    columns nor the arrays' contents. -/
def dstRow? {E w : Nat} (N : Nat) (idx : IVec ⟨2, ![E, 1]⟩ w) (e : Fin E) : Option (Fin N) :=
  if h : 0 ≤ (idx (ix2 e (0 : Fin 1))).toInt ∧ (idx (ix2 e (0 : Fin 1))).toInt < (N : Int) then
    some ⟨(idx (ix2 e (0 : Fin 1))).toInt.toNat, by omega⟩
  else none

/-- On the operand's axis 0 the window of update entry `(e, c)` starts at the `e`-th scatter index, read signed. -/
theorem rowScatter_start0 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the operand's axis 1, which the scatter index does not name, the window starts at `0`. -/
theorem rowScatter_start1 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from (by decide : (1 : Fin 2) ∉ [0]))]

/-- On the operand's axis 0, an inserted axis, the window coordinate is `0`. -/
theorem rowScatter_window0 {N E C : Nat} (wf : ScatterDims.WF ⟨2, ![N, C]⟩ ⟨2, ![E, 1]⟩ ⟨2, ![E, C]⟩ [1] [0] [0] 1)
    (e : Fin E) (c : Fin C) : (rowScatterDims N E C wf).window (ix2 e c) 0 = 0 := by
  unfold ScatterDims.window
  rw [dif_neg]
  show (0 : Fin 2) ∉ Shape.kept ⟨2, ![N, C]⟩ [0]
  simp [Shape.kept]

/-- On the operand's axis 1 the window coordinate of update entry `(e, c)` is its column `c`. -/
theorem rowScatter_window1 {N E C : Nat} (wf : ScatterDims.WF ⟨2, ![N, C]⟩ ⟨2, ![E, 1]⟩ ⟨2, ![E, C]⟩ [1] [0] [0] 1)
    (e : Fin E) (c : Fin C) : (rowScatterDims N E C wf).window (ix2 e c) 1 = c.val := by
  unfold ScatterDims.window
  have hk : (1 : Fin 2) ∈ (rowScatterDims N E C wf).sKept := by
    show (1 : Fin 2) ∈ Shape.kept ⟨2, ![N, C]⟩ [0]
    simp [Shape.kept]
  rw [dif_pos hk]
  rfl

/-- THE LANDING ENTRY of update entry `(e, c)`: column `c` of the row `dstRow? N idx e`, when there is one. -/
theorem rowScatter_resultIdx? {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).resultIdx? (ix2 e c) idx = (dstRow? N idx e).map (fun r => ix2 r c) := by
  have hs0 := rowScatter_start0 wf idx e c
  have hs1 := rowScatter_start1 wf idx e c
  have hw0 := rowScatter_window0 wf e c
  have hw1 := rowScatter_window1 wf e c
  have hc : c.val < C := c.isLt
  unfold ScatterDims.resultIdx? dstRow?
  by_cases h : 0 ≤ (idx (ix2 e (0 : Fin 1))).toInt ∧ (idx (ix2 e (0 : Fin 1))).toInt < (N : Int)
  · have hall : ∀ a, 0 ≤ (rowScatterDims N E C wf).start (ix2 e c) idx a + (rowScatterDims N E C wf).window (ix2 e c) a ∧
        (rowScatterDims N E C wf).start (ix2 e c) idx a + (rowScatterDims N E C wf).window (ix2 e c) a
          < (⟨2, ![N, C]⟩ : Shape).size a := by
      rw [Fin.forall_fin_two, hs0, hs1, hw0, hw1]
      refine ⟨⟨by simpa using h.1, by simpa using h.2⟩, ⟨by simp, by simpa using hc⟩⟩
    rw [dif_pos hall, dif_pos h, Option.map_some]
    refine congrArg some (idx2_ext _ _ (Fin.ext ?_) (Fin.ext ?_))
    · show ((rowScatterDims N E C wf).start (ix2 e c) idx 0 + (rowScatterDims N E C wf).window (ix2 e c) 0).toNat
        = (idx (ix2 e (0 : Fin 1))).toInt.toNat
      rw [hs0, hw0]; simp
    · show ((rowScatterDims N E C wf).start (ix2 e c) idx 1 + (rowScatterDims N E C wf).window (ix2 e c) 1).toNat
        = c.val
      rw [hs1, hw1]; simp
  · rw [dif_neg h, dif_neg]
    · rfl
    · intro hall
      have h0 := hall 0
      rw [hs0, hw0] at h0
      exact h (by simpa using h0)

/-- An update entry `j` lands on entry `(i, c)` exactly when its row's scatter index is `i` and its column is `c`. -/
theorem rowScatter_resultIdx?_eq_some {N E C w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : Fin N) (c : Fin C) :
    (rowScatterDims N E C wf).resultIdx? j idx = some (ix2 i c) ↔ dstRow? N idx (j 0) = some i ∧ j 1 = c := by
  obtain ⟨e, c', rfl⟩ : ∃ e c', j = ix2 e c' := ⟨j 0, j 1, eq_ix2 j⟩
  show _ ↔ dstRow? N idx e = some i ∧ c' = c
  rw [rowScatter_resultIdx? wf idx e c', Option.map_eq_some_iff]
  constructor
  · rintro ⟨r, hr, hrc⟩
    have h0 : r = i := congrFun hrc 0
    have h1 : c' = c := congrFun hrc 1
    exact ⟨by rw [hr, h0], h1⟩
  · rintro ⟨hr, rfl⟩
    exact ⟨i, hr, rfl⟩

/-- THE ROW SCATTER-ADD READ AT `(i, c)`: the operand's entry plus the sum, over the update rows `e` whose scatter
    index (read signed, not clamped) is `i`, of their entries in column `c`. -/
theorem rowScatterAdd_apply {N E C w : Nat} (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (i : Fin N) (c : Fin C) :
    Host.scatterAdd (F := Ideal) (rowScatterDims N E C wf) x idx upd (ix2 i c)
      = x (ix2 i c) + ∑ e ∈ Finset.univ.filter (fun e : Fin E => dstRow? N idx e = some i), upd (ix2 e c) := by
  show x (ix2 i c) + ∑ j ∈ Finset.univ.filter (fun j => (rowScatterDims N E C wf).resultIdx? j idx = some (ix2 i c)), upd j = _
  congr 1
  refine Finset.sum_nbij' (fun j => j 0) (fun e => ix2 e c) ?_ ?_ ?_ ?_ ?_
  · intro j hj
    rw [Finset.mem_filter] at hj
    exact Finset.mem_filter.mpr ⟨Finset.mem_univ _, ((rowScatter_resultIdx?_eq_some wf idx j i c).mp hj.2).1⟩
  · intro e he
    rw [Finset.mem_filter] at he
    exact Finset.mem_filter.mpr ⟨Finset.mem_univ _, (rowScatter_resultIdx?_eq_some wf idx (ix2 e c) i c).mpr ⟨he.2, rfl⟩⟩
  · intro j hj
    rw [Finset.mem_filter] at hj
    have h1 := ((rowScatter_resultIdx?_eq_some wf idx j i c).mp hj.2).2
    rw [← h1]; exact (eq_ix2 j).symm
  · intro e _; rfl
  · intro j hj
    rw [Finset.mem_filter] at hj
    have h1 := ((rowScatter_resultIdx?_eq_some wf idx j i c).mp hj.2).2
    rw [← h1]; exact congrArg upd (eq_ix2 j)

end ScatterAdd

end Cert.LibAggRows

end
-- ==== Proof.LibMeanStep.lean ====
/-
  MEAN AGGREGATION OVER A DIRECTED EDGE LIST, READ AT AN ENTRY.

  A graph has N nodes and E edges; an edge list gives, per edge, the node a message is read from and the node it is
  added to, each as an integer word in an [E, 1] column. One aggregation step takes a table of node features [N, C] and a
  vector of per-node scales [N] (the reciprocal of a degree clamped below at one) and returns, at node i and
  column c,

      (0 + the sum over the edges e landing on i of table(row read by e, c)) * scale(i).

  The row an edge reads is its word read signed and clamped into [0, N-1]; the node it lands on is its word read signed
  and NOT clamped, the edge being dropped when the word is outside [0, N). Every entry of the result is a real
  number as soon as every entry of the table and of the scales is.
-/
import Idealize.ShloMosaic.PureOps.Ideal
import Idealize.ShloMosaic.PureOps.Ideal.Laws
import Idealize.ShloMosaic.Lib.ValueIdx
import Idealize.ShloMosaic.Lib.Pipeline.Value
import proofs.«112400_j15479062135292_1_alg».proof.Proof.LibAggRows
import proofs.«112400_j15479062135292_1_alg».proof.Proof.LibRealSums

noncomputable section

open scoped BigOperators

namespace Cert.MeanAgg

open Idealize.ShloMosaic Idealize.ShloMosaic.ValueIdx Cert.LibAggRows Cert.LibRealSums

/-- Every entry of an array of extended reals is a real number. -/
def AllReal {s : Shape} (x : FVec Ideal s .f32) : Prop := ∀ i, IsReal (x i)

variable {N E C w : Nat}

/-! ## Layouts of a per-node vector -/

/-- A vector [N] laid out as a column [N, 1] reads, in row i, the vector's entry i. -/
theorem column_apply {α : Type} (h1 : (⟨1, ![N]⟩ : Shape).BroadcastsInDim ⟨2, ![N, 1]⟩ ![0])
    (x : (⟨1, ![N]⟩ : Shape).Idx → α) (i : Fin N) (z : Fin 1) :
    broadcastInDim ⟨2, ![N, 1]⟩ ![0] h1 x (ix2 i z) = x (ix1 i) := by
  refine broadcastInDim_apply ![0] h1 x (ix2 i z) (ix1 i) fun a => ?_
  match a with
  | ⟨0, _⟩ =>
    show i.val = if N = 1 then 0 else i.val
    split_ifs with h
    · have := i.isLt; omega
    · rfl

/-- A column [N, 1] spread over [N, C] reads, at (i, c), the column's entry in row i. -/
theorem spread_apply {α : Type} (h2 : (⟨2, ![N, 1]⟩ : Shape).BroadcastsInDim ⟨2, ![N, C]⟩ ![0, 1])
    (x : (⟨2, ![N, 1]⟩ : Shape).Idx → α) (i : Fin N) (c : Fin C) :
    broadcastInDim ⟨2, ![N, C]⟩ ![0, 1] h2 x (ix2 i c) = x (ix2 i (0 : Fin 1)) := by
  refine broadcastInDim_apply ![0, 1] h2 x (ix2 i c) (ix2 i (0 : Fin 1)) fun a => ?_
  match a with
  | ⟨0, _⟩ =>
    show i.val = if N = 1 then 0 else i.val
    split_ifs with h
    · have := i.isLt; omega
    · rfl
  | ⟨1, _⟩ =>
    show (0 : Nat) = if (1 : Nat) = 1 then 0 else c.val
    rfl

/-- A scalar spread over any shape reads the scalar everywhere. -/
theorem scalar_apply {α : Type} {t : Shape} (hz : (⟨0, ![]⟩ : Shape).BroadcastsInDim t ![])
    (x : (⟨0, ![]⟩ : Shape).Idx → α) (j : t.Idx) :
    broadcastInDim t ![] hz x j = x (fun a => a.elim0) :=
  broadcastInDim_apply ![] hz x j (fun a => a.elim0) fun a => a.elim0

/-! ## The aggregation at an entry -/

/-- Entry (i, c) of one mean-aggregation step. -/
def aggAt (hN : 0 < N) (tbl : FVec Ideal ⟨2, ![N, C]⟩ .f32) (gidx sidx : IVec ⟨2, ![E, 1]⟩ w)
    (inv : FVec Ideal ⟨1, ![N]⟩ .f32) (i : Fin N) (c : Fin C) : EReal :=
  (0 + ∑ e ∈ Finset.univ.filter (fun e : Fin E => dstRow? N sidx e = some i), tbl (ix2 (srcRow N hN gidx e) c))
    * inv (ix1 i)

/-- The host's spelling of the step — rows gathered through one index column, added into a zero table through the
    other, and the result scaled row by row by the vector laid out as a column and spread over the columns — read at
    (i, c). -/
theorem hostAgg_apply (hN : 0 < N)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (hz : (⟨0, ![]⟩ : Shape).BroadcastsInDim ⟨2, ![N, C]⟩ ![])
    (h1 : (⟨1, ![N]⟩ : Shape).BroadcastsInDim ⟨2, ![N, 1]⟩ ![0])
    (h2 : (⟨2, ![N, 1]⟩ : Shape).BroadcastsInDim ⟨2, ![N, C]⟩ ![0, 1])
    (tbl : FVec Ideal ⟨2, ![N, C]⟩ .f32) (gidx sidx : IVec ⟨2, ![E, 1]⟩ w) (inv : FVec Ideal ⟨1, ![N]⟩ .f32)
    (i : Fin N) (c : Fin C) :
    mulf (Host.scatterAdd (F := Ideal) (rowScatterDims N E C wfS)
        (broadcastInDim ⟨2, ![N, C]⟩ ![] hz (constant (F := Ideal) ⟨0, ![]⟩ .f32 0x00000000#32)) sidx
        (Host.gather (rowGatherDims N E C wfG) tbl gidx))
      (broadcastInDim ⟨2, ![N, C]⟩ ![0, 1] h2 (broadcastInDim ⟨2, ![N, 1]⟩ ![0] h1 inv)) (ix2 i c)
    = aggAt hN tbl gidx sidx inv i c := by
  rw [mulf_apply, rowScatterAdd_apply, spread_apply, column_apply, scalar_apply, constant_apply, Ideal.ofBits_zero_f32]
  unfold aggAt
  congr 2
  exact Finset.sum_congr rfl fun e _ => rowGather_apply hN wfG tbl gidx e c

/-- Over a real table and real scales every entry of the step is a real number. -/
theorem isReal_aggAt (hN : 0 < N) (tbl : FVec Ideal ⟨2, ![N, C]⟩ .f32) (gidx sidx : IVec ⟨2, ![E, 1]⟩ w)
    (inv : FVec Ideal ⟨1, ![N]⟩ .f32) (ht : AllReal tbl) (hi : AllReal inv) (i : Fin N) (c : Fin C) :
    IsReal (aggAt hN tbl gidx sidx inv i c) :=
  isReal_mul (isReal_add isReal_zero (isReal_sum _ _ fun _ _ => ht _)) (hi _)

end Cert.MeanAgg

end
-- ==== Proof.LibRealArrays.lean ====
/-
  ARRAYS WHOSE ENTRIES ARE ALL REAL NUMBERS.

  The host operations a neighbour aggregation is made of keep the property "every entry is a real number": a
  constant zero or one, a broadcast, a gather (each entry is an entry of the table), an accumulating scatter (each
  entry is an operand entry plus a finite sum of updates), a product, a sum, the reciprocal of a count clamped below
  at one, and two arrays laid side by side. None of this depends on which rows the index arrays select.
-/
import Idealize.ShloMosaic.PureOps.Ideal
import Idealize.ShloMosaic.PureOps.Ideal.Laws
import Idealize.ShloMosaic.Lib.IdealHost
import Idealize.ShloMosaic.Lib.ValueIdx
import Idealize.ShloMosaic.Lib.Pipeline.Value
import proofs.«112400_j15479062135292_1_alg».proof.Proof.LibRealSums
import proofs.«112400_j15479062135292_1_alg».proof.Proof.LibConcatCols
import proofs.«112400_j15479062135292_1_alg».proof.Proof.LibMeanStep

noncomputable section

open scoped BigOperators

namespace Cert.MeanAgg

open Idealize.ShloMosaic Idealize.ShloMosaic.ValueIdx Cert.LibRealSums

/-- The constant zero array. -/
theorem allReal_zero {s : Shape} : AllReal (constant (F := Ideal) s .f32 0x00000000#32) := fun _ => by
  rw [constant_apply, Ideal.ofBits_zero_f32]; exact isReal_zero

/-- The constant one array. -/
theorem allReal_one {s : Shape} : AllReal (constant (F := Ideal) s .f32 0x3F800000#32) := fun _ => by
  rw [constant_apply, Ideal.ofBits_one_f32]; exact isReal_one

/-- A broadcast reads entries of its operand. -/
theorem allReal_bcast {s t : Shape} (dims : Fin s.rank → Fin t.rank) (h : s.BroadcastsInDim t dims)
    (x : FVec Ideal s .f32) (hx : AllReal x) : AllReal (broadcastInDim t dims h x) := fun j => by
  unfold broadcastInDim; exact hx _

/-- A gather reads entries of its table. -/
theorem allReal_gather {s si t : Shape} {w : Nat} (d : GatherDims s si t) (x : FVec Ideal s .f32) (idx : IVec si w)
    (hx : AllReal x) : AllReal (Host.gather d x idx) := fun j => by
  unfold Host.gather; exact hx _

/-- An accumulating scatter adds finitely many updates to each operand entry. -/
theorem allReal_scatterAdd {s si su : Shape} {w : Nat} (d : ScatterDims s si su) (x : FVec Ideal s .f32)
    (idx : IVec si w) (u : FVec Ideal su .f32) (hx : AllReal x) (hu : AllReal u) :
    AllReal (Host.scatterAdd (F := Ideal) d x idx u) := fun i => by
  show IsReal (x i + ∑ j ∈ Finset.univ.filter (fun j => d.resultIdx? j idx = some i), u j)
  exact isReal_add (hx i) (isReal_sum _ _ fun j _ => hu j)

/-- A product of real arrays. -/
theorem allReal_mulf {s : Shape} (a b : FVec Ideal s .f32) (ha : AllReal a) (hb : AllReal b) : AllReal (mulf a b) :=
  fun i => isReal_mul (ha i) (hb i)

/-- One over the larger of a real array and one. -/
theorem allReal_invClamp {s : Shape} (a d o : FVec Ideal s .f32) (ha : ∀ i, a i = 1) (ho : ∀ i, o i = 1)
    (hd : AllReal d) : AllReal (Host.divf a (maximumf d o)) := fun i => by
  show IsReal (Ideal.div (a i) (max (d i) (o i)))
  rw [ha, ho]; exact isReal_invDeg _ (hd i)

/-- Two real arrays laid side by side. -/
theorem allReal_cols {K N₁ N₂ N : Nat} (hN : N = N₁ + N₂) (a : FVec Ideal ⟨2, ![K, N₁]⟩ .f32)
    (b : FVec Ideal ⟨2, ![K, N₂]⟩ .f32)
    (h : Shape.Concatenates [(⟨2, ![K, N₁]⟩ : Shape), ⟨2, ![K, N₂]⟩] ⟨2, ![K, N]⟩ 1)
    (ha : AllReal a) (hb : AllReal b) :
    AllReal (concatenate ⟨2, ![K, N]⟩ 1 [⟨⟨2, ![K, N₁]⟩, a⟩, ⟨⟨2, ![K, N₂]⟩, b⟩] h) := fun j => by
  obtain ⟨k, q, rfl⟩ : ∃ (k : Fin K) (q : Fin N), j = ix2 k q := ⟨j 0, j 1, eq_ix2 j⟩
  by_cases hq : q.val < N₁
  · rw [Cert.LibConcatCols.cols_left a b h k q ⟨q.val, hq⟩ rfl]; exact ha _
  · have hlt : q.val - N₁ < N₂ := by have := q.isLt; omega
    rw [Cert.LibConcatCols.cols_right a b h k q ⟨q.val - N₁, hlt⟩ (by show q.val - N₁ + N₁ = q.val; omega)]
    exact hb _

end Cert.MeanAgg

end
-- ==== Proof.LibSageMeanLayer.lean ====
/-
  One layer of a graph network with mean aggregation over an edge list, read at an entry, on the extended reals.

  A layer takes node features X : [N, k], the aggregated neighbour features A : [N, k], two weight matrices
  Wl, Wr : [k, n] and a bias row B : [1, n], and returns, at node r and column q,

      pre A X Wl Wr B (r, q) = (sum over c of A(r, c) * Wl(c, q)) + (sum over c of X(r, c) * Wr(c, q)) + B(0, q),

  optionally bounded below by zero (`act`).  A tile of rows spells it with the matrix unit (operands rounded to
  bfloat16, which changes nothing on the extended reals) and adds the bias row last; the host spells it with two
  dot_generals and adds the bias row between them.  Addition of extended reals is commutative and associative, so the
  two groupings agree; and an entry of a product only reads its own row, so the layer of a block of rows is that
  block of the layer.

  The aggregate is a sum over the edges landing on a node, divided by the node's in-degree clamped below at one.  One
  program multiplies by the reciprocal 1 / max(deg, 1), the other divides by max(deg, 1).  The degree is a finite
  sum of ones, a real number, so max(deg, 1) is a real number that is at least one, and for a nonzero real divisor
  the quotient of ANY extended real is its product with the reciprocal: the two agree at every entry, whatever the
  sum being scaled.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«112400_j15479062135292_1_alg».proof.Proof.LibDenseBranch
import proofs.«112400_j15479062135292_1_alg».proof.Proof.LibRealArrays

noncomputable section

open scoped BigOperators

namespace Cert.SageLayer

open Idealize.ShloMosaic Idealize.ShloMosaic.ValueIdx Cert.LibRealSums Cert.MeanAgg

variable {a k n N E C w : ℕ}

/-- The layer before the rectifier, at an entry: both products, then the bias of the column. -/
def pre (A X : (⟨2, ![a, k]⟩ : Shape).Idx → EReal) (Wl Wr : (⟨2, ![k, n]⟩ : Shape).Idx → EReal)
    (B : (⟨2, ![1, n]⟩ : Shape).Idx → EReal) : (⟨2, ![a, n]⟩ : Shape).Idx → EReal :=
  fun i => Cert.Dense.prod A Wl i + Cert.Dense.prod X Wr i + B (ix2 (0 : Fin 1) (i 1))

/-- The rectified layer at an entry: the larger of `pre` and zero. -/
def act (A X : (⟨2, ![a, k]⟩ : Shape).Idx → EReal) (Wl Wr : (⟨2, ![k, n]⟩ : Shape).Idx → EReal)
    (B : (⟨2, ![1, n]⟩ : Shape).Idx → EReal) : (⟨2, ![a, n]⟩ : Shape).Idx → EReal :=
  fun i => max (pre A X Wl Wr B i) (Ideal.ofBits .f32 0x00000000#32)

/-! ## An entry only reads its own row of the two feature arrays -/

/-- If row (j 0) of the blocks ab, xb is row (i 0) of the arrays A, X, and the weights, the bias and the column
    agree, the layer's entry j over the blocks is its entry i over the arrays. -/
theorem pre_at (A X : (⟨2, ![N, k]⟩ : Shape).Idx → EReal) (Wl Wr : (⟨2, ![k, n]⟩ : Shape).Idx → EReal)
    (B : (⟨2, ![1, n]⟩ : Shape).Idx → EReal)
    (ab xb : (⟨2, ![a, k]⟩ : Shape).Idx → EReal) (wl wr : (⟨2, ![k, n]⟩ : Shape).Idx → EReal)
    (bb : (⟨2, ![1, n]⟩ : Shape).Idx → EReal)
    (j : (⟨2, ![a, n]⟩ : Shape).Idx) (i : (⟨2, ![N, n]⟩ : Shape).Idx)
    (ha : ∀ c : Fin k, ab (ix2 (j 0) c) = A (ix2 (i 0) c)) (hx : ∀ c : Fin k, xb (ix2 (j 0) c) = X (ix2 (i 0) c))
    (hwl : ∀ y, wl y = Wl y) (hwr : ∀ y, wr y = Wr y) (hb : ∀ y, bb y = B y) (hq : j 1 = i 1) :
    pre ab xb wl wr bb j = pre A X Wl Wr B i := by
  show Cert.Dense.prod ab wl j + Cert.Dense.prod xb wr j + bb (ix2 (0 : Fin 1) (j 1))
      = Cert.Dense.prod A Wl i + Cert.Dense.prod X Wr i + B (ix2 (0 : Fin 1) (i 1))
  rw [Cert.Branch.prod_at A Wl ab wl j i ha hwl hq, Cert.Branch.prod_at X Wr xb wr j i hx hwr hq, hb, hq]

/-- The same for the rectified layer. -/
theorem act_at (A X : (⟨2, ![N, k]⟩ : Shape).Idx → EReal) (Wl Wr : (⟨2, ![k, n]⟩ : Shape).Idx → EReal)
    (B : (⟨2, ![1, n]⟩ : Shape).Idx → EReal)
    (ab xb : (⟨2, ![a, k]⟩ : Shape).Idx → EReal) (wl wr : (⟨2, ![k, n]⟩ : Shape).Idx → EReal)
    (bb : (⟨2, ![1, n]⟩ : Shape).Idx → EReal)
    (j : (⟨2, ![a, n]⟩ : Shape).Idx) (i : (⟨2, ![N, n]⟩ : Shape).Idx)
    (ha : ∀ c : Fin k, ab (ix2 (j 0) c) = A (ix2 (i 0) c)) (hx : ∀ c : Fin k, xb (ix2 (j 0) c) = X (ix2 (i 0) c))
    (hwl : ∀ y, wl y = Wl y) (hwr : ∀ y, wr y = Wr y) (hb : ∀ y, bb y = B y) (hq : j 1 = i 1) :
    act ab xb wl wr bb j = act A X Wl Wr B i := by
  show max (pre ab xb wl wr bb j) _ = max (pre A X Wl Wr B i) _
  rw [pre_at A X Wl Wr B ab xb wl wr bb j i ha hx hwl hwr hb hq]

/-! ## The tile's spelling and the host's spelling -/

section Spellings

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- On a tile: the two matrix-unit products into zero, added, plus the bias row spread over the rows. -/
theorem tile_pre (x0 x1 : FVec Ideal ⟨2, ![a, k]⟩ .f32) (wl wr : FVec Ideal ⟨2, ![k, n]⟩ .f32)
    (b : FVec Ideal ⟨2, ![1, n]⟩ .f32) (hb : FTy.bf16.bits < FTy.f32.bits)
    (hc3 : (⟨2, ![1, n]⟩ : Shape).ShapeCasts ⟨2, ![1, n]⟩) (hb3 : (⟨2, ![1, n]⟩ : Shape).Broadcasts ⟨2, ![a, n]⟩) :
    addf (addf (matmul d none (truncf .bf16 x0 hb) (truncf .bf16 wl hb)
            (constant (F := Ideal) ⟨2, ![a, n]⟩ .f32 0x00000000#32))
          (matmul d none (truncf .bf16 x1 hb) (truncf .bf16 wr hb)
            (constant (F := Ideal) ⟨2, ![a, n]⟩ .f32 0x00000000#32)))
        (broadcastTo ⟨2, ![a, n]⟩ (shapeCast ⟨2, ![1, n]⟩ b hc3) hb3)
      = pre x0 x1 wl wr b := by
  funext i
  obtain ⟨r, q, rfl⟩ : ∃ (r : Fin a) (q : Fin n), i = ix2 r q := ⟨i 0, i 1, eq_ix2 i⟩
  rw [Cert.Dense.matmul_eq_prod d hlc hrc hln hrn hlb hrb x0 wl hb,
    Cert.Dense.matmul_eq_prod d hlc hrc hln hrn hlb hrb x1 wr hb, Cert.Dense.tile_biased, addf_apply]
  rfl

include hlc hrc hln hrn hlb hrb in
/-- On a tile, bounded below by a zero spread over the tile. -/
theorem tile_act (x0 x1 : FVec Ideal ⟨2, ![a, k]⟩ .f32) (wl wr : FVec Ideal ⟨2, ![k, n]⟩ .f32)
    (b : FVec Ideal ⟨2, ![1, n]⟩ .f32) (hb : FTy.bf16.bits < FTy.f32.bits)
    (hc3 : (⟨2, ![1, n]⟩ : Shape).ShapeCasts ⟨2, ![1, n]⟩) (hb3 : (⟨2, ![1, n]⟩ : Shape).Broadcasts ⟨2, ![a, n]⟩) :
    maximumf (addf (addf (matmul d none (truncf .bf16 x0 hb) (truncf .bf16 wl hb)
            (constant (F := Ideal) ⟨2, ![a, n]⟩ .f32 0x00000000#32))
          (matmul d none (truncf .bf16 x1 hb) (truncf .bf16 wr hb)
            (constant (F := Ideal) ⟨2, ![a, n]⟩ .f32 0x00000000#32)))
        (broadcastTo ⟨2, ![a, n]⟩ (shapeCast ⟨2, ![1, n]⟩ b hc3) hb3))
      (broadcast ⟨2, ![a, n]⟩ (Scalar.ofBits (F := Ideal) .f32 0x00000000#32))
      = act x0 x1 wl wr b := by
  funext i
  refine congrArg (fun z : EReal => max z (Ideal.ofBits .f32 0x00000000#32)) ?_
  exact congrFun (tile_pre d hlc hrc hln hrn hlb hrb x0 x1 wl wr b hb hc3 hb3) i

include hlc hrc hln hrn hlb hrb in
/-- On the whole array, in the host's grouping: the first dot_general plus the bias row laid over the rows, plus the
    second dot_general. -/
theorem host_pre (A X : FVec Ideal ⟨2, ![a, k]⟩ .f32) (Wl Wr : FVec Ideal ⟨2, ![k, n]⟩ .f32)
    (B : FVec Ideal ⟨2, ![1, n]⟩ .f32) (hB : (⟨2, ![1, n]⟩ : Shape).BroadcastsInDim ⟨2, ![a, n]⟩ ![0, 1]) :
    addf (addf (Host.dotGeneral (F := Ideal) d none A Wl) (broadcastInDim ⟨2, ![a, n]⟩ ![0, 1] hB B))
        (Host.dotGeneral (F := Ideal) d none X Wr)
      = pre A X Wl Wr B := by
  funext i
  obtain ⟨r, q, rfl⟩ : ∃ (r : Fin a) (q : Fin n), i = ix2 r q := ⟨i 0, i 1, eq_ix2 i⟩
  rw [addf_apply, Cert.Dense.host_biased, Cert.Dense.dotGeneral_eq_prod d hlc hrc hln hrn hlb hrb A Wl,
    Cert.Dense.dotGeneral_eq_prod d hlc hrc hln hrn hlb hrb X Wr]
  exact add_right_comm _ _ _

include hlc hrc hln hrn hlb hrb in
/-- The same bounded below by a scalar zero laid over everything. -/
theorem host_act (A X : FVec Ideal ⟨2, ![a, k]⟩ .f32) (Wl Wr : FVec Ideal ⟨2, ![k, n]⟩ .f32)
    (B : FVec Ideal ⟨2, ![1, n]⟩ .f32) (hB : (⟨2, ![1, n]⟩ : Shape).BroadcastsInDim ⟨2, ![a, n]⟩ ![0, 1])
    (h0 : (⟨0, ![]⟩ : Shape).BroadcastsInDim ⟨2, ![a, n]⟩ ![]) :
    maximumf (addf (addf (Host.dotGeneral (F := Ideal) d none A Wl) (broadcastInDim ⟨2, ![a, n]⟩ ![0, 1] hB B))
        (Host.dotGeneral (F := Ideal) d none X Wr))
      (broadcastInDim ⟨2, ![a, n]⟩ ![] h0 (constant (F := Ideal) ⟨0, ![]⟩ .f32 0x00000000#32))
      = act A X Wl Wr B := by
  funext i
  refine congrArg (fun z : EReal => max z (Ideal.ofBits .f32 0x00000000#32)) ?_
  exact congrFun (host_pre d hlc hrc hln hrn hlb hrb A X Wl Wr B hB) i

end Spellings

/-! ## Scaling by the reciprocal of the clamped degree is dividing by it -/

/-- For a real number d, max(d, 1) is a real number that is at least one, so any extended real times
    1 / max(d, 1) is that extended real divided by max(d, 1). -/
theorem mul_invDeg (x d : EReal) (hd : IsReal d) : x * Ideal.div 1 (max d 1) = Ideal.div x (max d 1) := by
  obtain ⟨m, hm⟩ := isReal_max hd isReal_one
  have h1 : (1 : ℝ) ≤ m := by
    have h : ((1 : ℝ) : EReal) ≤ (m : EReal) := by
      rw [← hm, EReal.coe_one]; exact le_max_right _ _
    exact EReal.coe_le_coe_iff.1 h
  have hne : m ≠ 0 := by linarith
  rw [hm, Ideal.div_coe hne, Ideal.div_coe hne, one_mul]

/-- A scalar one laid over any shape reads one everywhere. -/
theorem ones_apply {t : Shape} (h : (⟨0, ![]⟩ : Shape).BroadcastsInDim t ![]) (j : t.Idx) :
    broadcastInDim t ![] h (constant (F := Ideal) ⟨0, ![]⟩ .f32 0x3F800000#32) j = 1 := by
  rw [scalar_apply, constant_apply, Ideal.ofBits_one_f32]

/-- The in-degree column, an accumulating scatter of ones into zeros, holds real numbers, whichever rows the index
    column names. -/
theorem allReal_degree {s si su : Shape} (dS : ScatterDims s si su) (hz : (⟨0, ![]⟩ : Shape).BroadcastsInDim s ![])
    (ho : (⟨0, ![]⟩ : Shape).BroadcastsInDim su ![]) (idx : IVec si w) :
    AllReal (Host.scatterAdd (F := Ideal) dS
      (broadcastInDim s ![] hz (constant (F := Ideal) ⟨0, ![]⟩ .f32 0x00000000#32)) idx
      (broadcastInDim su ![] ho (constant (F := Ideal) ⟨0, ![]⟩ .f32 0x3F800000#32))) :=
  allReal_scatterAdd dS _ idx _ (allReal_bcast _ hz _ allReal_zero) (allReal_bcast _ ho _ allReal_one)

/-- The mean of the aggregate, spelt twice: the sums S times the column 1 / max(deg, 1) spread over the columns, and
    S divided by the column max(deg, 1) spread over the columns. Equal as soon as the degrees are real numbers and the
    two arrays of ones hold ones. -/
theorem mean_mul_eq_div (S : FVec Ideal ⟨2, ![N, C]⟩ .f32) (deg o1 o2 : FVec Ideal ⟨2, ![N, 1]⟩ .f32)
    (h2 : (⟨2, ![N, 1]⟩ : Shape).BroadcastsInDim ⟨2, ![N, C]⟩ ![0, 1])
    (ho1 : ∀ i, o1 i = 1) (ho2 : ∀ i, o2 i = 1) (hdeg : AllReal deg) :
    mulf S (broadcastInDim ⟨2, ![N, C]⟩ ![0, 1] h2 (Host.divf o2 (maximumf deg o1)))
      = Host.divf S (broadcastInDim ⟨2, ![N, C]⟩ ![0, 1] h2 (maximumf deg o1)) := by
  funext j
  obtain ⟨i, c, rfl⟩ : ∃ (i : Fin N) (c : Fin C), j = ix2 i c := ⟨j 0, j 1, eq_ix2 j⟩
  rw [mulf_apply, hostDivf_apply, spread_apply, spread_apply, hostDivf_apply, maximumf_apply, ho1, ho2]
  exact mul_invDeg _ _ (hdeg _)

end Cert.SageLayer

end
-- ==== Proof.KernelLayers.lean ====
/-
  Laws of the kernel program's host-side pieces, and its layers as functions.

  Scaling the neighbour sums by the reciprocal of the clamped in-degree is dividing them by the clamped in-degree:
  the degree is a finite sum of ones, a real number, so the divisor is a real number that is at least one. A layer is
  the dense step of the scaled sums and of the features themselves, with the bias vector as one row.
-/
import proofs.«112400_j15479062135292_1_alg».proof.Proof.KernelTerms
import proofs.«112400_j15479062135292_1_alg».proof.Proof.LibSageMeanLayer

noncomputable section

namespace Cert.KernelIdeal.Terms

open Cert.KernelIdeal Cert.KernelIdeal.Gen Idealize.ShloMosaic

/-- The neighbour sums divided row by row by the larger of the in-degree and one. -/
def aggDiv (X : Feat) (v1 v3 : IVecE) : Feat :=
  Host.divf (F := Ideal) (sums X v1 v3)
    (broadcastInDim S100000x128 ![0, 1] bcast_S100000x1_S100000x128_0_1 (maximumf (deg v3) ones))

/-- The column of ones holds ones. -/
theorem ones_one (i : S100000x1.Idx) : ones i = 1 := by
  unfold ones
  exact Cert.SageLayer.ones_apply _ i

/-- Every in-degree is a real number. -/
theorem deg_real (v3 : IVecE) : Cert.MeanAgg.AllReal (deg v3) := by
  unfold deg
  exact Cert.SageLayer.allReal_degree _ _ _ _

/-- Scaling the sums by one over the clamped degree is dividing them by the clamped degree. -/
theorem agg_eq_div (X : Feat) (v1 v3 : IVecE) : agg X v1 v3 (invDeg v3) = aggDiv X v1 v3 := by
  unfold agg invDeg aggDiv
  exact Cert.SageLayer.mean_mul_eq_div (N := 100000) (C := 128) (sums X v1 v3) (deg v3) ones ones _ ones_one ones_one
    (deg_real v3)

/-- A rectified layer of 128 output columns: the dense step of the mean-aggregated features and the features. -/
def layerA (X : Feat) (e : Edges) (Wl : FVec Ideal S128x128 .f32) (b : FVec Ideal S128 .f32)
    (Wr : FVec Ideal S128x128 .f32) : Feat :=
  Cert.SageLayer.act (a := 100000) (k := 128) (n := 128)
    (agg X (srcVec e) (dstVec e) (invDeg (dstVec e))) X Wl Wr (row128 b)

/-- The last layer, 40 output columns and no rectifier. -/
def layerC (X : Feat) (e : Edges) (Wl : FVec Ideal S128x40 .f32) (b : FVec Ideal S40 .f32)
    (Wr : FVec Ideal S128x40 .f32) : FVec Ideal S100000x40 .f32 :=
  Cert.SageLayer.pre (a := 100000) (k := 128) (n := 40)
    (agg X (srcVec e) (dstVec e) (invDeg (dstVec e))) X Wl Wr (row40 b)

end Cert.KernelIdeal.Terms

end
-- ==== Proof.Region0.lean ====
/-
  Tiled dense step 1 of the network, as a whole array.

  The step's grid has 25 points; point t stages rows 4000 t .. 4000 t + 3999 of the aggregated features and of the
  node features, the two weight matrices and the bias row whole, computes the layer of that block of rows and writes
  it back as rows 4000 t .. 4000 t + 3999 of the output. An entry of the layer only reads its own row of the two
  feature arrays, so what point t writes is that block of the layer of the whole arrays; the 25 blocks cover the
  100000 rows, so the output array is the layer of the arrays as the step finds them.
-/
import proofs.«112400_j15479062135292_1_alg».proof.Proof.KernelIdealFrameP
import proofs.«112400_j15479062135292_1_alg».proof.Proof.LibSageMeanLayer
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The value the body stores is the layer of the blocks it loaded. -/
theorem pay (x0 x1 : FVec Ideal S4000x128 .f32) (x2 x4 : FVec Ideal S128x128 .f32) (x3 : FVec Ideal S1x128 .f32) :
    k0_pay1 (F := Ideal) x0 x1 x2 x4 x3 = Cert.SageLayer.act (a := 4000) (k := 128) (n := 128) x0 x1 x2 x4 x3 := by
  unfold k0_pay1
  dsimp only
  rw [shapeCast_self x0]
  exact Cert.SageLayer.tile_act (a := 4000) (k := 128) (n := 128) dot_S4000x128_S128x128_S4000x128_1_0_0_1_n_n rfl rfl rfl rfl rfl rfl
    x0 x1 x2 x4 x3 _ _ _

/-- The layer of the arrays as the step finds them: what its output array ends holding. -/
def G (c : Dev nD) : S100000x128.Idx → EReal :=
  Cert.SageLayer.act (a := 100000) (k := 128) (n := 128) (V c main_v23) (V c main_arg0) (V c main_arg2) (V c main_arg4) (V c main_v24)

/-- The printed index maps over the 25 points: the row windows are at block row t, the others at block (0, 0). -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of the layer of the whole arrays. -/
theorem flushed (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S4000x128) hz, View.ld_unit_zero (S := S128x128) hz, View.ld_unit_zero (S := S1x128) hz]
  obtain ⟨e0, e1, e2, e3, e4, e5, e6, e7, e8, e9, e10, e11⟩ := idx t
  funext j
  show k0_pay1 (F := Ideal) (iblk0 V c 0 t) (iblk0 V c 1 t) (iblk0 V c 2 t) (iblk0 V c 4 t) (iblk0 V c 3 t) j
      = G V c (((cfg0.win 5).blk t).view.emb j)
  refine (congrFun (pay (iblk0 V c 0 t) (iblk0 V c 1 t) (iblk0 V c 2 t) (iblk0 V c 4 t) (iblk0 V c 3 t)) j).trans ?_
  refine Cert.SageLayer.act_at (a := 4000) (k := 128) (n := 128) (N := 100000)
    (V c main_v23) (V c main_arg0) (V c main_arg2) (V c main_arg4) (V c main_v24)
    (iblk0 V c 0 t) (iblk0 V c 1 t) (iblk0 V c 2 t) (iblk0 V c 4 t) (iblk0 V c 3 t)
    j (((cfg0.win 5).blk t).view.emb j) ?_ ?_ ?_ ?_ ?_ ?_
  · intro c'
    show V c main_v23 (((cfg0.win 0).blk t).view.emb (ix2 (j 0) c'))
        = V c main_v23 (ix2 ((((cfg0.win 5).blk t).view.emb j) 0) c')
    refine congrArg (V c main_v23) (funext fun a => Fin.ext ?_)
    match a with
    | ⟨0, _⟩ =>
      show win0_0.index t (0 : Fin 2) * 4000 + 1 * (j 0).val = win0_5.index t (0 : Fin 2) * 4000 + 1 * (j 0).val
      omega
    | ⟨1, _⟩ =>
      show win0_0.index t (1 : Fin 2) * 128 + 1 * c'.val = c'.val
      omega
  · intro c'
    show V c main_arg0 (((cfg0.win 1).blk t).view.emb (ix2 (j 0) c'))
        = V c main_arg0 (ix2 ((((cfg0.win 5).blk t).view.emb j) 0) c')
    refine congrArg (V c main_arg0) (funext fun a => Fin.ext ?_)
    match a with
    | ⟨0, _⟩ =>
      show win0_1.index t (0 : Fin 2) * 4000 + 1 * (j 0).val = win0_5.index t (0 : Fin 2) * 4000 + 1 * (j 0).val
      omega
    | ⟨1, _⟩ =>
      show win0_1.index t (1 : Fin 2) * 128 + 1 * c'.val = c'.val
      omega
  · intro y
    show V c main_arg2 (((cfg0.win 2).blk t).view.emb y) = V c main_arg2 y
    refine congrArg (V c main_arg2) (funext fun a => Fin.ext ?_)
    match a with
    | ⟨0, _⟩ =>
      show win0_2.index t (0 : Fin 2) * 128 + 1 * (y 0).val = (y 0).val
      omega
    | ⟨1, _⟩ =>
      show win0_2.index t (1 : Fin 2) * 128 + 1 * (y 1).val = (y 1).val
      omega
  · intro y
    show V c main_arg4 (((cfg0.win 4).blk t).view.emb y) = V c main_arg4 y
    refine congrArg (V c main_arg4) (funext fun a => Fin.ext ?_)
    match a with
    | ⟨0, _⟩ =>
      show win0_4.index t (0 : Fin 2) * 128 + 1 * (y 0).val = (y 0).val
      omega
    | ⟨1, _⟩ =>
      show win0_4.index t (1 : Fin 2) * 128 + 1 * (y 1).val = (y 1).val
      omega
  · intro y
    show V c main_v24 (((cfg0.win 3).blk t).view.emb y) = V c main_v24 y
    refine congrArg (V c main_v24) (funext fun a => Fin.ext ?_)
    match a with
    | ⟨0, _⟩ =>
      show win0_3.index t (0 : Fin 2) * 1 + 1 * (y 0).val = (y 0).val
      omega
    | ⟨1, _⟩ =>
      show win0_3.index t (1 : Fin 2) * 128 + 1 * (y 1).val = (y 1).val
      omega
  · apply Fin.ext
    show (j 1).val = win0_5.index t (1 : Fin 2) * 128 + 1 * (j 1).val
    omega

/-- An index of the output array is in point t's block iff each coordinate is in the block's range on its axis. -/
theorem mem_blk (t : Fin cfg0.N) (i : S100000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v25).slice (win0_5.rect t)).set ↔ _
  rw [View.set_slice_whole, Rect.mem_set_unit]
  exact Iff.rfl

/-- Row r of the output lies in the block of point r / 4000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hlt : (i 0).val / 4000 < cfg0.N := by
    rw [show cfg0.N = 25 from N_0]; omega
  refine ⟨⟨(i 0).val / 4000, hlt⟩, flush0_5 _, ?_⟩
  rw [mem_blk]
  obtain ⟨e0, e1, e2, e3, e4, e5, e6, e7, e8, e9, e10, e11⟩ := idx ⟨(i 0).val / 4000, hlt⟩
  have q0 : win0_5.index ⟨(i 0).val / 4000, hlt⟩ (0 : Fin 2) = (i 0).val / 4000 := e10
  intro a
  match a with
  | ⟨0, _⟩ =>
    show win0_5.index ⟨(i 0).val / 4000, hlt⟩ (0 : Fin 2) * 4000 ≤ (i 0).val
      ∧ (i 0).val < win0_5.index ⟨(i 0).val / 4000, hlt⟩ (0 : Fin 2) * 4000 + 4000
    omega
  | ⟨1, _⟩ =>
    show win0_5.index ⟨(i 0).val / 4000, hlt⟩ (1 : Fin 2) * 128 ≤ (i 1).val
      ∧ (i 1).val < win0_5.index ⟨(i 0).val / 4000, hlt⟩ (1 : Fin 2) * 128 + 128
    omega

/-- The step's output array after its last write-back is the layer of the arrays as the step found them. -/
theorem value (c : Dev nD) : (dat0 V c).arrAt 5 cfg0.N = G V c :=
  (dat0 V c).arrAt_eq_of_cover 5 (G V c) (fun t _ => flushed V c t) cover

end Cert.KernelIdeal.Region0

end
-- ==== Proof.Region1.lean ====
/-
  Tiled dense step 2 of the network, as a whole array.

  The step's grid has 25 points; point t stages rows 4000 t .. 4000 t + 3999 of the aggregated features and of the
  node features, the two weight matrices and the bias row whole, computes the layer of that block of rows and writes
  it back as rows 4000 t .. 4000 t + 3999 of the output. An entry of the layer only reads its own row of the two
  feature arrays, so what point t writes is that block of the layer of the whole arrays; the 25 blocks cover the
  100000 rows, so the output array is the layer of the arrays as the step finds them.
-/
import proofs.«112400_j15479062135292_1_alg».proof.Proof.KernelIdealFrameP
import proofs.«112400_j15479062135292_1_alg».proof.Proof.LibSageMeanLayer
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The value the body stores is the layer of the blocks it loaded. -/
theorem pay (x0 x1 : FVec Ideal S4000x128 .f32) (x2 x4 : FVec Ideal S128x128 .f32) (x3 : FVec Ideal S1x128 .f32) :
    k1_pay1 (F := Ideal) x0 x1 x2 x4 x3 = Cert.SageLayer.act (a := 4000) (k := 128) (n := 128) x0 x1 x2 x4 x3 := by
  unfold k1_pay1
  dsimp only
  rw [shapeCast_self x0, shapeCast_self x1]
  exact Cert.SageLayer.tile_act (a := 4000) (k := 128) (n := 128) dot_S4000x128_S128x128_S4000x128_1_0_0_1_n_n rfl rfl rfl rfl rfl rfl
    x0 x1 x2 x4 x3 _ _ _

/-- The layer of the arrays as the step finds them: what its output array ends holding. -/
def G (c : Dev nD) : S100000x128.Idx → EReal :=
  Cert.SageLayer.act (a := 100000) (k := 128) (n := 128) (V c main_v37) (V c main_v25) (V c main_arg5) (V c main_arg7) (V c main_v38)

/-- The printed index maps over the 25 points: the row windows are at block row t, the others at block (0, 0). -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the layer of the whole arrays. -/
theorem flushed (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S4000x128) hz, View.ld_unit_zero (S := S128x128) hz, View.ld_unit_zero (S := S1x128) hz]
  obtain ⟨e0, e1, e2, e3, e4, e5, e6, e7, e8, e9, e10, e11⟩ := idx t
  funext j
  show k1_pay1 (F := Ideal) (iblk1 V c 0 t) (iblk1 V c 1 t) (iblk1 V c 2 t) (iblk1 V c 4 t) (iblk1 V c 3 t) j
      = G V c (((cfg1.win 5).blk t).view.emb j)
  refine (congrFun (pay (iblk1 V c 0 t) (iblk1 V c 1 t) (iblk1 V c 2 t) (iblk1 V c 4 t) (iblk1 V c 3 t)) j).trans ?_
  refine Cert.SageLayer.act_at (a := 4000) (k := 128) (n := 128) (N := 100000)
    (V c main_v37) (V c main_v25) (V c main_arg5) (V c main_arg7) (V c main_v38)
    (iblk1 V c 0 t) (iblk1 V c 1 t) (iblk1 V c 2 t) (iblk1 V c 4 t) (iblk1 V c 3 t)
    j (((cfg1.win 5).blk t).view.emb j) ?_ ?_ ?_ ?_ ?_ ?_
  · intro c'
    show V c main_v37 (((cfg1.win 0).blk t).view.emb (ix2 (j 0) c'))
        = V c main_v37 (ix2 ((((cfg1.win 5).blk t).view.emb j) 0) c')
    refine congrArg (V c main_v37) (funext fun a => Fin.ext ?_)
    match a with
    | ⟨0, _⟩ =>
      show win1_0.index t (0 : Fin 2) * 4000 + 1 * (j 0).val = win1_5.index t (0 : Fin 2) * 4000 + 1 * (j 0).val
      omega
    | ⟨1, _⟩ =>
      show win1_0.index t (1 : Fin 2) * 128 + 1 * c'.val = c'.val
      omega
  · intro c'
    show V c main_v25 (((cfg1.win 1).blk t).view.emb (ix2 (j 0) c'))
        = V c main_v25 (ix2 ((((cfg1.win 5).blk t).view.emb j) 0) c')
    refine congrArg (V c main_v25) (funext fun a => Fin.ext ?_)
    match a with
    | ⟨0, _⟩ =>
      show win1_1.index t (0 : Fin 2) * 4000 + 1 * (j 0).val = win1_5.index t (0 : Fin 2) * 4000 + 1 * (j 0).val
      omega
    | ⟨1, _⟩ =>
      show win1_1.index t (1 : Fin 2) * 128 + 1 * c'.val = c'.val
      omega
  · intro y
    show V c main_arg5 (((cfg1.win 2).blk t).view.emb y) = V c main_arg5 y
    refine congrArg (V c main_arg5) (funext fun a => Fin.ext ?_)
    match a with
    | ⟨0, _⟩ =>
      show win1_2.index t (0 : Fin 2) * 128 + 1 * (y 0).val = (y 0).val
      omega
    | ⟨1, _⟩ =>
      show win1_2.index t (1 : Fin 2) * 128 + 1 * (y 1).val = (y 1).val
      omega
  · intro y
    show V c main_arg7 (((cfg1.win 4).blk t).view.emb y) = V c main_arg7 y
    refine congrArg (V c main_arg7) (funext fun a => Fin.ext ?_)
    match a with
    | ⟨0, _⟩ =>
      show win1_4.index t (0 : Fin 2) * 128 + 1 * (y 0).val = (y 0).val
      omega
    | ⟨1, _⟩ =>
      show win1_4.index t (1 : Fin 2) * 128 + 1 * (y 1).val = (y 1).val
      omega
  · intro y
    show V c main_v38 (((cfg1.win 3).blk t).view.emb y) = V c main_v38 y
    refine congrArg (V c main_v38) (funext fun a => Fin.ext ?_)
    match a with
    | ⟨0, _⟩ =>
      show win1_3.index t (0 : Fin 2) * 1 + 1 * (y 0).val = (y 0).val
      omega
    | ⟨1, _⟩ =>
      show win1_3.index t (1 : Fin 2) * 128 + 1 * (y 1).val = (y 1).val
      omega
  · apply Fin.ext
    show (j 1).val = win1_5.index t (1 : Fin 2) * 128 + 1 * (j 1).val
    omega

/-- An index of the output array is in point t's block iff each coordinate is in the block's range on its axis. -/
theorem mem_blk (t : Fin cfg1.N) (i : S100000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v39).slice (win1_5.rect t)).set ↔ _
  rw [View.set_slice_whole, Rect.mem_set_unit]
  exact Iff.rfl

/-- Row r of the output lies in the block of point r / 4000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hlt : (i 0).val / 4000 < cfg1.N := by
    rw [show cfg1.N = 25 from N_1]; omega
  refine ⟨⟨(i 0).val / 4000, hlt⟩, flush1_5 _, ?_⟩
  rw [mem_blk]
  obtain ⟨e0, e1, e2, e3, e4, e5, e6, e7, e8, e9, e10, e11⟩ := idx ⟨(i 0).val / 4000, hlt⟩
  have q0 : win1_5.index ⟨(i 0).val / 4000, hlt⟩ (0 : Fin 2) = (i 0).val / 4000 := e10
  intro a
  match a with
  | ⟨0, _⟩ =>
    show win1_5.index ⟨(i 0).val / 4000, hlt⟩ (0 : Fin 2) * 4000 ≤ (i 0).val
      ∧ (i 0).val < win1_5.index ⟨(i 0).val / 4000, hlt⟩ (0 : Fin 2) * 4000 + 4000
    omega
  | ⟨1, _⟩ =>
    show win1_5.index ⟨(i 0).val / 4000, hlt⟩ (1 : Fin 2) * 128 ≤ (i 1).val
      ∧ (i 1).val < win1_5.index ⟨(i 0).val / 4000, hlt⟩ (1 : Fin 2) * 128 + 128
    omega

/-- The step's output array after its last write-back is the layer of the arrays as the step found them. -/
theorem value (c : Dev nD) : (dat1 V c).arrAt 5 cfg1.N = G V c :=
  (dat1 V c).arrAt_eq_of_cover 5 (G V c) (fun t _ => flushed V c t) cover

end Cert.KernelIdeal.Region1

end
-- ==== Proof.Region2.lean ====
/-
  Tiled dense step 3 of the network, as a whole array.

  The step's grid has 25 points; point t stages rows 4000 t .. 4000 t + 3999 of the aggregated features and of the
  node features, the two weight matrices and the bias row whole, computes the layer of that block of rows and writes
  it back as rows 4000 t .. 4000 t + 3999 of the output. An entry of the layer only reads its own row of the two
  feature arrays, so what point t writes is that block of the layer of the whole arrays; the 25 blocks cover the
  100000 rows, so the output array is the layer of the arrays as the step finds them.
-/
import proofs.«112400_j15479062135292_1_alg».proof.Proof.KernelIdealFrameP
import proofs.«112400_j15479062135292_1_alg».proof.Proof.LibSageMeanLayer
import Idealize.ShloMosaic.Lib.Pipeline.Value

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The value the body stores is the layer of the blocks it loaded. -/
theorem pay (x0 x1 : FVec Ideal S4000x128 .f32) (x2 x4 : FVec Ideal S128x40 .f32) (x3 : FVec Ideal S1x40 .f32) :
    k2_pay1 (F := Ideal) x0 x1 x2 x4 x3 = Cert.SageLayer.pre (a := 4000) (k := 128) (n := 40) x0 x1 x2 x4 x3 := by
  unfold k2_pay1
  dsimp only
  rw [shapeCast_self x0, shapeCast_self x1]
  exact Cert.SageLayer.tile_pre (a := 4000) (k := 128) (n := 40) dot_S4000x128_S128x40_S4000x40_1_0_0_1_n_n rfl rfl rfl rfl rfl rfl
    x0 x1 x2 x4 x3 _ _ _

/-- The layer of the arrays as the step finds them: what its output array ends holding. -/
def G (c : Dev nD) : S100000x40.Idx → EReal :=
  Cert.SageLayer.pre (a := 100000) (k := 128) (n := 40) (V c main_v51) (V c main_v39) (V c main_arg8) (V c main_arg10) (V c main_v52)

/-- The printed index maps over the 25 points: the row windows are at block row t, the others at block (0, 0). -/
theorem idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is block t of the layer of the whole arrays. -/
theorem flushed (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S4000x128) hz, View.ld_unit_zero (S := S128x40) hz, View.ld_unit_zero (S := S1x40) hz]
  obtain ⟨e0, e1, e2, e3, e4, e5, e6, e7, e8, e9, e10, e11⟩ := idx t
  funext j
  show k2_pay1 (F := Ideal) (iblk2 V c 0 t) (iblk2 V c 1 t) (iblk2 V c 2 t) (iblk2 V c 4 t) (iblk2 V c 3 t) j
      = G V c (((cfg2.win 5).blk t).view.emb j)
  refine (congrFun (pay (iblk2 V c 0 t) (iblk2 V c 1 t) (iblk2 V c 2 t) (iblk2 V c 4 t) (iblk2 V c 3 t)) j).trans ?_
  refine Cert.SageLayer.pre_at (a := 4000) (k := 128) (n := 40) (N := 100000)
    (V c main_v51) (V c main_v39) (V c main_arg8) (V c main_arg10) (V c main_v52)
    (iblk2 V c 0 t) (iblk2 V c 1 t) (iblk2 V c 2 t) (iblk2 V c 4 t) (iblk2 V c 3 t)
    j (((cfg2.win 5).blk t).view.emb j) ?_ ?_ ?_ ?_ ?_ ?_
  · intro c'
    show V c main_v51 (((cfg2.win 0).blk t).view.emb (ix2 (j 0) c'))
        = V c main_v51 (ix2 ((((cfg2.win 5).blk t).view.emb j) 0) c')
    refine congrArg (V c main_v51) (funext fun a => Fin.ext ?_)
    match a with
    | ⟨0, _⟩ =>
      show win2_0.index t (0 : Fin 2) * 4000 + 1 * (j 0).val = win2_5.index t (0 : Fin 2) * 4000 + 1 * (j 0).val
      omega
    | ⟨1, _⟩ =>
      show win2_0.index t (1 : Fin 2) * 128 + 1 * c'.val = c'.val
      omega
  · intro c'
    show V c main_v39 (((cfg2.win 1).blk t).view.emb (ix2 (j 0) c'))
        = V c main_v39 (ix2 ((((cfg2.win 5).blk t).view.emb j) 0) c')
    refine congrArg (V c main_v39) (funext fun a => Fin.ext ?_)
    match a with
    | ⟨0, _⟩ =>
      show win2_1.index t (0 : Fin 2) * 4000 + 1 * (j 0).val = win2_5.index t (0 : Fin 2) * 4000 + 1 * (j 0).val
      omega
    | ⟨1, _⟩ =>
      show win2_1.index t (1 : Fin 2) * 128 + 1 * c'.val = c'.val
      omega
  · intro y
    show V c main_arg8 (((cfg2.win 2).blk t).view.emb y) = V c main_arg8 y
    refine congrArg (V c main_arg8) (funext fun a => Fin.ext ?_)
    match a with
    | ⟨0, _⟩ =>
      show win2_2.index t (0 : Fin 2) * 128 + 1 * (y 0).val = (y 0).val
      omega
    | ⟨1, _⟩ =>
      show win2_2.index t (1 : Fin 2) * 40 + 1 * (y 1).val = (y 1).val
      omega
  · intro y
    show V c main_arg10 (((cfg2.win 4).blk t).view.emb y) = V c main_arg10 y
    refine congrArg (V c main_arg10) (funext fun a => Fin.ext ?_)
    match a with
    | ⟨0, _⟩ =>
      show win2_4.index t (0 : Fin 2) * 128 + 1 * (y 0).val = (y 0).val
      omega
    | ⟨1, _⟩ =>
      show win2_4.index t (1 : Fin 2) * 40 + 1 * (y 1).val = (y 1).val
      omega
  · intro y
    show V c main_v52 (((cfg2.win 3).blk t).view.emb y) = V c main_v52 y
    refine congrArg (V c main_v52) (funext fun a => Fin.ext ?_)
    match a with
    | ⟨0, _⟩ =>
      show win2_3.index t (0 : Fin 2) * 1 + 1 * (y 0).val = (y 0).val
      omega
    | ⟨1, _⟩ =>
      show win2_3.index t (1 : Fin 2) * 40 + 1 * (y 1).val = (y 1).val
      omega
  · apply Fin.ext
    show (j 1).val = win2_5.index t (1 : Fin 2) * 40 + 1 * (j 1).val
    omega

/-- An index of the output array is in point t's block iff each coordinate is in the block's range on its axis. -/
theorem mem_blk (t : Fin cfg2.N) (i : S100000x40.Idx) :
    i ∈ ((cfg2.win 5).blk t).view.set ↔ ∀ a : Fin 2, win2_5.index t a * S4000x40.size a ≤ (i a).val
      ∧ (i a).val < win2_5.index t a * S4000x40.size a + S4000x40.size a := by
  show i ∈ ((View.whole main_v53).slice (win2_5.rect t)).set ↔ _
  rw [View.set_slice_whole, Rect.mem_set_unit]
  exact Iff.rfl

/-- Row r of the output lies in the block of point r / 4000. -/
theorem cover (i : S100000x40.Idx) :
    ∃ t : Fin cfg2.N, (cfg2.win 5).flush t = true ∧ i ∈ ((cfg2.win 5).blk t).view.set := by
  have hi0 : (i 0).val < 100000 := (i 0).isLt
  have hi1 : (i 1).val < 40 := (i 1).isLt
  have hlt : (i 0).val / 4000 < cfg2.N := by
    rw [show cfg2.N = 25 from N_2]; omega
  refine ⟨⟨(i 0).val / 4000, hlt⟩, flush2_5 _, ?_⟩
  rw [mem_blk]
  obtain ⟨e0, e1, e2, e3, e4, e5, e6, e7, e8, e9, e10, e11⟩ := idx ⟨(i 0).val / 4000, hlt⟩
  have q0 : win2_5.index ⟨(i 0).val / 4000, hlt⟩ (0 : Fin 2) = (i 0).val / 4000 := e10
  intro a
  match a with
  | ⟨0, _⟩ =>
    show win2_5.index ⟨(i 0).val / 4000, hlt⟩ (0 : Fin 2) * 4000 ≤ (i 0).val
      ∧ (i 0).val < win2_5.index ⟨(i 0).val / 4000, hlt⟩ (0 : Fin 2) * 4000 + 4000
    omega
  | ⟨1, _⟩ =>
    show win2_5.index ⟨(i 0).val / 4000, hlt⟩ (1 : Fin 2) * 40 ≤ (i 1).val
      ∧ (i 1).val < win2_5.index ⟨(i 0).val / 4000, hlt⟩ (1 : Fin 2) * 40 + 40
    omega

/-- The step's output array after its last write-back is the layer of the arrays as the step found them. -/
theorem value (c : Dev nD) : (dat2 V c).arrAt 5 cfg2.N = G V c :=
  (dat2 V c).arrAt_eq_of_cover 5 (G V c) (fun t _ => flushed V c t) cover

end Cert.KernelIdeal.Region2

end
-- ==== Proof.Stretch0.lean ====
/-
  What the first tiled step finds: the buffers after the first stretch of host operations.

  The stretch computes, from the edge list alone, the two index rows, the in-degree column and its clamped
  reciprocal; from the node features, the scaled neighbour sums; and the first bias vector as one row. It writes no
  argument array. Each buffer is read back as the named function of the launch contents it depends on.
-/
import proofs.«112400_j15479062135292_1_alg».proof.Proof.KernelIdealFrameP
import proofs.«112400_j15479062135292_1_alg».proof.Proof.KernelTerms
import Idealize.ShloMosaic.Lib.StableHlo.Run

set_option maxRecDepth 16384

noncomputable section

namespace Cert.KernelIdeal.Stretch0

open Cert.KernelIdeal Cert.KernelIdeal.Gen Cert.KernelIdeal.Terms
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- The source row of the edge list. -/
theorem v1 (c : Dev nD) : W1 m ρ c (Proc.devRef .tc main_v1) = srcVec (m ((c : Thread nD τ).loc main_arg1)) := by
  show StableHlo.after hostOps0 (W0 m ρ c) (Proc.devRef .tc main_v1) = _
  dsimp only [hostOps0]
  after_results_simp <;> rfl

set_option maxHeartbeats 4000000 in
/-- The target row of the edge list. -/
theorem v3 (c : Dev nD) : W1 m ρ c (Proc.devRef .tc main_v3) = dstVec (m ((c : Thread nD τ).loc main_arg1)) := by
  show StableHlo.after hostOps0 (W0 m ρ c) (Proc.devRef .tc main_v3) = _
  dsimp only [hostOps0]
  after_results_simp <;> rfl

set_option maxHeartbeats 4000000 in
/-- The clamped reciprocal of the in-degree. -/
theorem v11 (c : Dev nD) : W1 m ρ c (Proc.devRef .tc main_v11) = invDeg (dstVec (m ((c : Thread nD τ).loc main_arg1))) := by
  show StableHlo.after hostOps0 (W0 m ρ c) (Proc.devRef .tc main_v11) = _
  dsimp only [hostOps0]
  after_results_simp <;> rfl

set_option maxHeartbeats 4000000 in
/-- The scaled neighbour sums of the node features. -/
theorem v23 (c : Dev nD) : W1 m ρ c (Proc.devRef .tc main_v23) = agg (m ((c : Thread nD τ).loc main_arg0)) (srcVec (m ((c : Thread nD τ).loc main_arg1))) (dstVec (m ((c : Thread nD τ).loc main_arg1)))
        (invDeg (dstVec (m ((c : Thread nD τ).loc main_arg1)))) := by
  show StableHlo.after hostOps0 (W0 m ρ c) (Proc.devRef .tc main_v23) = _
  dsimp only [hostOps0]
  after_results_simp <;> rfl

set_option maxHeartbeats 4000000 in
/-- The first bias vector as one row. -/
theorem v24 (c : Dev nD) : W1 m ρ c (Proc.devRef .tc main_v24) = row128 (m ((c : Thread nD τ).loc main_arg3)) := by
  show StableHlo.after hostOps0 (W0 m ρ c) (Proc.devRef .tc main_v24) = _
  dsimp only [hostOps0]
  after_results_simp <;> rfl

set_option maxHeartbeats 4000000 in
/-- Argument 0 is not written. -/
theorem arg0 (c : Dev nD) : W1 m ρ c (Proc.devRef .tc main_arg0) = (m ((c : Thread nD τ).loc main_arg0)) := by
  show StableHlo.after hostOps0 (W0 m ρ c) (Proc.devRef .tc main_arg0) = _
  dsimp only [hostOps0]
  after_results_simp <;> rfl

set_option maxHeartbeats 4000000 in
/-- Argument 2 is not written. -/
theorem arg2 (c : Dev nD) : W1 m ρ c (Proc.devRef .tc main_arg2) = (m ((c : Thread nD τ).loc main_arg2)) := by
  show StableHlo.after hostOps0 (W0 m ρ c) (Proc.devRef .tc main_arg2) = _
  dsimp only [hostOps0]
  after_results_simp <;> rfl

set_option maxHeartbeats 4000000 in
/-- Argument 4 is not written. -/
theorem arg4 (c : Dev nD) : W1 m ρ c (Proc.devRef .tc main_arg4) = (m ((c : Thread nD τ).loc main_arg4)) := by
  show StableHlo.after hostOps0 (W0 m ρ c) (Proc.devRef .tc main_arg4) = _
  dsimp only [hostOps0]
  after_results_simp <;> rfl

set_option maxHeartbeats 4000000 in
/-- Argument 5 is not written. -/
theorem arg5 (c : Dev nD) : W1 m ρ c (Proc.devRef .tc main_arg5) = (m ((c : Thread nD τ).loc main_arg5)) := by
  show StableHlo.after hostOps0 (W0 m ρ c) (Proc.devRef .tc main_arg5) = _
  dsimp only [hostOps0]
  after_results_simp <;> rfl

set_option maxHeartbeats 4000000 in
/-- Argument 6 is not written. -/
theorem arg6 (c : Dev nD) : W1 m ρ c (Proc.devRef .tc main_arg6) = (m ((c : Thread nD τ).loc main_arg6)) := by
  show StableHlo.after hostOps0 (W0 m ρ c) (Proc.devRef .tc main_arg6) = _
  dsimp only [hostOps0]
  after_results_simp <;> rfl

set_option maxHeartbeats 4000000 in
/-- Argument 7 is not written. -/
theorem arg7 (c : Dev nD) : W1 m ρ c (Proc.devRef .tc main_arg7) = (m ((c : Thread nD τ).loc main_arg7)) := by
  show StableHlo.after hostOps0 (W0 m ρ c) (Proc.devRef .tc main_arg7) = _
  dsimp only [hostOps0]
  after_results_simp <;> rfl

set_option maxHeartbeats 4000000 in
/-- Argument 8 is not written. -/
theorem arg8 (c : Dev nD) : W1 m ρ c (Proc.devRef .tc main_arg8) = (m ((c : Thread nD τ).loc main_arg8)) := by
  show StableHlo.after hostOps0 (W0 m ρ c) (Proc.devRef .tc main_arg8) = _
  dsimp only [hostOps0]
  after_results_simp <;> rfl

set_option maxHeartbeats 4000000 in
/-- Argument 9 is not written. -/
theorem arg9 (c : Dev nD) : W1 m ρ c (Proc.devRef .tc main_arg9) = (m ((c : Thread nD τ).loc main_arg9)) := by
  show StableHlo.after hostOps0 (W0 m ρ c) (Proc.devRef .tc main_arg9) = _
  dsimp only [hostOps0]
  after_results_simp <;> rfl

set_option maxHeartbeats 4000000 in
/-- Argument 10 is not written. -/
theorem arg10 (c : Dev nD) : W1 m ρ c (Proc.devRef .tc main_arg10) = (m ((c : Thread nD τ).loc main_arg10)) := by
  show StableHlo.after hostOps0 (W0 m ρ c) (Proc.devRef .tc main_arg10) = _
  dsimp only [hostOps0]
  after_results_simp <;> rfl

end Cert.KernelIdeal.Stretch0

end
-- ==== Proof.Stretch1.lean ====
/-
  What the second tiled step finds: the buffers after the second stretch of host operations, read back as functions
  of the buffers at the first step's exit. The stretch gathers and adds the first layer's output along the edge list,
  scales the sums by the reciprocal degrees computed before the first step, and reshapes the second bias vector; it
  writes none of the buffers it reads.
-/
import proofs.«112400_j15479062135292_1_alg».proof.Proof.KernelIdealFrameP
import proofs.«112400_j15479062135292_1_alg».proof.Proof.KernelTerms
import Idealize.ShloMosaic.Lib.StableHlo.Run

set_option maxRecDepth 16384

noncomputable section

namespace Cert.KernelIdeal.Stretch1

open Cert.KernelIdeal Cert.KernelIdeal.Gen Cert.KernelIdeal.Terms
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- The scaled neighbour sums of the first layer's output. -/
theorem v37 (c : Dev nD) : W3 m ρ c (Proc.devRef .tc main_v37) = agg (W2 m ρ c (Proc.devRef .tc main_v25)) (W2 m ρ c (Proc.devRef .tc main_v1)) (W2 m ρ c (Proc.devRef .tc main_v3)) (W2 m ρ c (Proc.devRef .tc main_v11)) := by
  show StableHlo.after hostOps1 (W2 m ρ c) (Proc.devRef .tc main_v37) = _
  dsimp only [hostOps1]
  after_results_simp <;> rfl

set_option maxHeartbeats 4000000 in
/-- The second bias vector as one row. -/
theorem v38 (c : Dev nD) : W3 m ρ c (Proc.devRef .tc main_v38) = row128 (W2 m ρ c (Proc.devRef .tc main_arg6)) := by
  show StableHlo.after hostOps1 (W2 m ρ c) (Proc.devRef .tc main_v38) = _
  dsimp only [hostOps1]
  after_results_simp <;> rfl

set_option maxHeartbeats 4000000 in
/-- The first layer's output is not written. -/
theorem v25 (c : Dev nD) : W3 m ρ c (Proc.devRef .tc main_v25) = (W2 m ρ c (Proc.devRef .tc main_v25)) := by
  show StableHlo.after hostOps1 (W2 m ρ c) (Proc.devRef .tc main_v25) = _
  dsimp only [hostOps1]
  after_results_simp <;> rfl

set_option maxHeartbeats 4000000 in
/-- The source row is not written. -/
theorem v1 (c : Dev nD) : W3 m ρ c (Proc.devRef .tc main_v1) = (W2 m ρ c (Proc.devRef .tc main_v1)) := by
  show StableHlo.after hostOps1 (W2 m ρ c) (Proc.devRef .tc main_v1) = _
  dsimp only [hostOps1]
  after_results_simp <;> rfl

set_option maxHeartbeats 4000000 in
/-- The target row is not written. -/
theorem v3 (c : Dev nD) : W3 m ρ c (Proc.devRef .tc main_v3) = (W2 m ρ c (Proc.devRef .tc main_v3)) := by
  show StableHlo.after hostOps1 (W2 m ρ c) (Proc.devRef .tc main_v3) = _
  dsimp only [hostOps1]
  after_results_simp <;> rfl

set_option maxHeartbeats 4000000 in
/-- The reciprocal degrees are not written. -/
theorem v11 (c : Dev nD) : W3 m ρ c (Proc.devRef .tc main_v11) = (W2 m ρ c (Proc.devRef .tc main_v11)) := by
  show StableHlo.after hostOps1 (W2 m ρ c) (Proc.devRef .tc main_v11) = _
  dsimp only [hostOps1]
  after_results_simp <;> rfl

set_option maxHeartbeats 4000000 in
/-- Argument 5 is not written. -/
theorem arg5 (c : Dev nD) : W3 m ρ c (Proc.devRef .tc main_arg5) = (W2 m ρ c (Proc.devRef .tc main_arg5)) := by
  show StableHlo.after hostOps1 (W2 m ρ c) (Proc.devRef .tc main_arg5) = _
  dsimp only [hostOps1]
  after_results_simp <;> rfl

set_option maxHeartbeats 4000000 in
/-- Argument 7 is not written. -/
theorem arg7 (c : Dev nD) : W3 m ρ c (Proc.devRef .tc main_arg7) = (W2 m ρ c (Proc.devRef .tc main_arg7)) := by
  show StableHlo.after hostOps1 (W2 m ρ c) (Proc.devRef .tc main_arg7) = _
  dsimp only [hostOps1]
  after_results_simp <;> rfl

set_option maxHeartbeats 4000000 in
/-- Argument 8 is not written. -/
theorem arg8 (c : Dev nD) : W3 m ρ c (Proc.devRef .tc main_arg8) = (W2 m ρ c (Proc.devRef .tc main_arg8)) := by
  show StableHlo.after hostOps1 (W2 m ρ c) (Proc.devRef .tc main_arg8) = _
  dsimp only [hostOps1]
  after_results_simp <;> rfl

set_option maxHeartbeats 4000000 in
/-- Argument 9 is not written. -/
theorem arg9 (c : Dev nD) : W3 m ρ c (Proc.devRef .tc main_arg9) = (W2 m ρ c (Proc.devRef .tc main_arg9)) := by
  show StableHlo.after hostOps1 (W2 m ρ c) (Proc.devRef .tc main_arg9) = _
  dsimp only [hostOps1]
  after_results_simp <;> rfl

set_option maxHeartbeats 4000000 in
/-- Argument 10 is not written. -/
theorem arg10 (c : Dev nD) : W3 m ρ c (Proc.devRef .tc main_arg10) = (W2 m ρ c (Proc.devRef .tc main_arg10)) := by
  show StableHlo.after hostOps1 (W2 m ρ c) (Proc.devRef .tc main_arg10) = _
  dsimp only [hostOps1]
  after_results_simp <;> rfl

end Cert.KernelIdeal.Stretch1

end
-- ==== Proof.Stretch2.lean ====
/-
  What the third tiled step finds: the buffers after the third stretch of host operations, read back as functions of
  the buffers at the second step's exit. The stretch gathers and adds the second layer's output along the edge list,
  scales the sums by the reciprocal degrees, and reshapes the third bias vector; it writes none of the buffers it
  reads.
-/
import proofs.«112400_j15479062135292_1_alg».proof.Proof.KernelIdealFrameP
import proofs.«112400_j15479062135292_1_alg».proof.Proof.KernelTerms
import Idealize.ShloMosaic.Lib.StableHlo.Run

set_option maxRecDepth 16384

noncomputable section

namespace Cert.KernelIdeal.Stretch2

open Cert.KernelIdeal Cert.KernelIdeal.Gen Cert.KernelIdeal.Terms
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- The scaled neighbour sums of the second layer's output. -/
theorem v51 (c : Dev nD) : W5 m ρ c (Proc.devRef .tc main_v51) = agg (W4 m ρ c (Proc.devRef .tc main_v39)) (W4 m ρ c (Proc.devRef .tc main_v1)) (W4 m ρ c (Proc.devRef .tc main_v3)) (W4 m ρ c (Proc.devRef .tc main_v11)) := by
  show StableHlo.after hostOps2 (W4 m ρ c) (Proc.devRef .tc main_v51) = _
  dsimp only [hostOps2]
  after_results_simp <;> rfl

set_option maxHeartbeats 4000000 in
/-- The third bias vector as one row. -/
theorem v52 (c : Dev nD) : W5 m ρ c (Proc.devRef .tc main_v52) = row40 (W4 m ρ c (Proc.devRef .tc main_arg9)) := by
  show StableHlo.after hostOps2 (W4 m ρ c) (Proc.devRef .tc main_v52) = _
  dsimp only [hostOps2]
  after_results_simp <;> rfl

set_option maxHeartbeats 4000000 in
/-- The second layer's output is not written. -/
theorem v39 (c : Dev nD) : W5 m ρ c (Proc.devRef .tc main_v39) = (W4 m ρ c (Proc.devRef .tc main_v39)) := by
  show StableHlo.after hostOps2 (W4 m ρ c) (Proc.devRef .tc main_v39) = _
  dsimp only [hostOps2]
  after_results_simp <;> rfl

set_option maxHeartbeats 4000000 in
/-- Argument 8 is not written. -/
theorem arg8 (c : Dev nD) : W5 m ρ c (Proc.devRef .tc main_arg8) = (W4 m ρ c (Proc.devRef .tc main_arg8)) := by
  show StableHlo.after hostOps2 (W4 m ρ c) (Proc.devRef .tc main_arg8) = _
  dsimp only [hostOps2]
  after_results_simp <;> rfl

set_option maxHeartbeats 4000000 in
/-- Argument 10 is not written. -/
theorem arg10 (c : Dev nD) : W5 m ρ c (Proc.devRef .tc main_arg10) = (W4 m ρ c (Proc.devRef .tc main_arg10)) := by
  show StableHlo.after hostOps2 (W4 m ρ c) (Proc.devRef .tc main_arg10) = _
  dsimp only [hostOps2]
  after_results_simp <;> rfl

end Cert.KernelIdeal.Stretch2

end
-- ==== Proof.KernelValue.lean ====
/-
  The idealized kernel's result as three layers of its arguments.

  Each tiled step leaves in its output array the layer of the arrays it finds; what it finds is what the stretch
  of host operations before it computes from the buffers at the previous step's exit; and a buffer that neither a
  step nor a stretch writes keeps its contents across them. Followed from the launch: the first step's output is
  layer one of the node features, the second step's is layer one's function of that output under the second
  weights, and the result is the last layer of that, all along the same edge list.
-/
import proofs.«112400_j15479062135292_1_alg».proof.Proof.KernelIdealFrameP
import proofs.«112400_j15479062135292_1_alg».proof.Proof.KernelRun
import proofs.«112400_j15479062135292_1_alg».proof.Proof.KernelLayers
import proofs.«112400_j15479062135292_1_alg».proof.Proof.Region0
import proofs.«112400_j15479062135292_1_alg».proof.Proof.Region1
import proofs.«112400_j15479062135292_1_alg».proof.Proof.Region2
import proofs.«112400_j15479062135292_1_alg».proof.Proof.Stretch0
import proofs.«112400_j15479062135292_1_alg».proof.Proof.Stretch1
import proofs.«112400_j15479062135292_1_alg».proof.Proof.Stretch2

set_option maxRecDepth 16384

noncomputable section

namespace Cert.KernelIdeal.NetValue

open Cert.KernelIdeal Cert.KernelIdeal.Gen Cert.KernelIdeal.Terms
open Idealize.ShloMosaic Idealize.ShloMosaic.TcCoe Idealize.SL.Sem

variable (m : (ℓ : Loc nD τ sig) → Buf (Elt Ideal) ℓ) (ρ : Dev nD → PrngReg)

/-! ## What the first step leaves, and what it does not touch -/

theorem w2_v1 (c : Dev nD) : W2 m ρ c (Proc.devRef .tc main_v1) = srcVec (m ((c : Thread nD τ).loc main_arg1)) :=
  (W2_of_ne m ρ c main_v1 (by decide)).trans (Stretch0.v1 m ρ c)
theorem w2_v3 (c : Dev nD) : W2 m ρ c (Proc.devRef .tc main_v3) = dstVec (m ((c : Thread nD τ).loc main_arg1)) :=
  (W2_of_ne m ρ c main_v3 (by decide)).trans (Stretch0.v3 m ρ c)
theorem w2_v11 (c : Dev nD) : W2 m ρ c (Proc.devRef .tc main_v11) = invDeg (dstVec (m ((c : Thread nD τ).loc main_arg1))) :=
  (W2_of_ne m ρ c main_v11 (by decide)).trans (Stretch0.v11 m ρ c)
theorem w2_arg5 (c : Dev nD) : W2 m ρ c (Proc.devRef .tc main_arg5) = (m ((c : Thread nD τ).loc main_arg5)) :=
  (W2_of_ne m ρ c main_arg5 (by decide)).trans (Stretch0.arg5 m ρ c)
theorem w2_arg6 (c : Dev nD) : W2 m ρ c (Proc.devRef .tc main_arg6) = (m ((c : Thread nD τ).loc main_arg6)) :=
  (W2_of_ne m ρ c main_arg6 (by decide)).trans (Stretch0.arg6 m ρ c)
theorem w2_arg7 (c : Dev nD) : W2 m ρ c (Proc.devRef .tc main_arg7) = (m ((c : Thread nD τ).loc main_arg7)) :=
  (W2_of_ne m ρ c main_arg7 (by decide)).trans (Stretch0.arg7 m ρ c)
theorem w2_arg8 (c : Dev nD) : W2 m ρ c (Proc.devRef .tc main_arg8) = (m ((c : Thread nD τ).loc main_arg8)) :=
  (W2_of_ne m ρ c main_arg8 (by decide)).trans (Stretch0.arg8 m ρ c)
theorem w2_arg9 (c : Dev nD) : W2 m ρ c (Proc.devRef .tc main_arg9) = (m ((c : Thread nD τ).loc main_arg9)) :=
  (W2_of_ne m ρ c main_arg9 (by decide)).trans (Stretch0.arg9 m ρ c)
theorem w2_arg10 (c : Dev nD) : W2 m ρ c (Proc.devRef .tc main_arg10) = (m ((c : Thread nD τ).loc main_arg10)) :=
  (W2_of_ne m ρ c main_arg10 (by decide)).trans (Stretch0.arg10 m ρ c)

/-- The first step's output array is layer one of the node features. -/
theorem out1 (c : Dev nD) : W2 m ρ c (Proc.devRef .tc main_v25) = (layerA (m ((c : Thread nD τ).loc main_arg0)) (m ((c : Thread nD τ).loc main_arg1)) (m ((c : Thread nD τ).loc main_arg2)) (m ((c : Thread nD τ).loc main_arg3)) (m ((c : Thread nD τ).loc main_arg4))) := by
  refine (W2_arr m ρ c 5).trans ?_
  rw [Region0.value]
  show Cert.SageLayer.act (a := 100000) (k := 128) (n := 128) (W1 m ρ c (Proc.devRef .tc main_v23)) (W1 m ρ c (Proc.devRef .tc main_arg0))
    (W1 m ρ c (Proc.devRef .tc main_arg2)) (W1 m ρ c (Proc.devRef .tc main_arg4)) (W1 m ρ c (Proc.devRef .tc main_v24)) = _
  rw [Stretch0.v23, Stretch0.arg0, Stretch0.arg2, Stretch0.arg4, Stretch0.v24]
  rfl

/-! ## What the second step leaves, and what it does not touch -/

theorem w4_v1 (c : Dev nD) : W4 m ρ c (Proc.devRef .tc main_v1) = srcVec (m ((c : Thread nD τ).loc main_arg1)) :=
  (W4_of_ne m ρ c main_v1 (by decide)).trans ((Stretch1.v1 m ρ c).trans (w2_v1 m ρ c))
theorem w4_v3 (c : Dev nD) : W4 m ρ c (Proc.devRef .tc main_v3) = dstVec (m ((c : Thread nD τ).loc main_arg1)) :=
  (W4_of_ne m ρ c main_v3 (by decide)).trans ((Stretch1.v3 m ρ c).trans (w2_v3 m ρ c))
theorem w4_v11 (c : Dev nD) : W4 m ρ c (Proc.devRef .tc main_v11) = invDeg (dstVec (m ((c : Thread nD τ).loc main_arg1))) :=
  (W4_of_ne m ρ c main_v11 (by decide)).trans ((Stretch1.v11 m ρ c).trans (w2_v11 m ρ c))
theorem w4_arg8 (c : Dev nD) : W4 m ρ c (Proc.devRef .tc main_arg8) = (m ((c : Thread nD τ).loc main_arg8)) :=
  (W4_of_ne m ρ c main_arg8 (by decide)).trans ((Stretch1.arg8 m ρ c).trans (w2_arg8 m ρ c))
theorem w4_arg9 (c : Dev nD) : W4 m ρ c (Proc.devRef .tc main_arg9) = (m ((c : Thread nD τ).loc main_arg9)) :=
  (W4_of_ne m ρ c main_arg9 (by decide)).trans ((Stretch1.arg9 m ρ c).trans (w2_arg9 m ρ c))
theorem w4_arg10 (c : Dev nD) : W4 m ρ c (Proc.devRef .tc main_arg10) = (m ((c : Thread nD τ).loc main_arg10)) :=
  (W4_of_ne m ρ c main_arg10 (by decide)).trans ((Stretch1.arg10 m ρ c).trans (w2_arg10 m ρ c))

/-- The second step's output array is the second layer. -/
theorem out2 (c : Dev nD) : W4 m ρ c (Proc.devRef .tc main_v39) = (layerA (layerA (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) := by
  refine (W4_arr m ρ c 5).trans ?_
  rw [Region1.value]
  show Cert.SageLayer.act (a := 100000) (k := 128) (n := 128) (W3 m ρ c (Proc.devRef .tc main_v37)) (W3 m ρ c (Proc.devRef .tc main_v25))
    (W3 m ρ c (Proc.devRef .tc main_arg5)) (W3 m ρ c (Proc.devRef .tc main_arg7)) (W3 m ρ c (Proc.devRef .tc main_v38)) = _
  rw [Stretch1.v37, Stretch1.v25, Stretch1.arg5, Stretch1.arg7, Stretch1.v38]
  rw [out1, w2_v1, w2_v3, w2_v11, w2_arg5, w2_arg6, w2_arg7]
  rfl

/-! ## The result -/

/-- The last step's output array is the third layer. -/
theorem out3 (c : Dev nD) : (dat2 (V5 m ρ) c).arrAt 5 cfg2.N = (layerC (layerA (layerA (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg1)) (m ((c : Thread nD τ).loc main_arg8)) (m ((c : Thread nD τ).loc main_arg9)) (m ((c : Thread nD τ).loc main_arg10))) := by
  rw [Region2.value]
  show Cert.SageLayer.pre (a := 100000) (k := 128) (n := 40) (W5 m ρ c (Proc.devRef .tc main_v51)) (W5 m ρ c (Proc.devRef .tc main_v39))
    (W5 m ρ c (Proc.devRef .tc main_arg8)) (W5 m ρ c (Proc.devRef .tc main_arg10)) (W5 m ρ c (Proc.devRef .tc main_v52)) = _
  rw [Stretch2.v51, Stretch2.v39, Stretch2.arg8, Stretch2.arg10, Stretch2.v52]
  rw [out2, w4_v1, w4_v3, w4_v11, w4_arg8, w4_arg9, w4_arg10]
  rfl

/-- Every weakly fair execution of the idealized kernel ends with the result buffer at the three layers of the
    launch contents, and the arguments as launched. -/
theorem run : θ_run defs (onTc (τ := τ) (main (F := Ideal))) ⟨m, fun _ => 0, ρ⟩ (fun r => ∀ c : Dev nD,
      r.2.mem ((c.tc : Thread nD τ).loc main_v53) = (layerC (layerA (layerA (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg1)) (m ((c : Thread nD τ).loc main_arg8)) (m ((c : Thread nD τ).loc main_arg9)) (m ((c : Thread nD τ).loc main_arg10)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (out3 m ρ c), (h c).2⟩) (RunValue.run_out m ρ)

end Cert.KernelIdeal.NetValue

end
-- ==== Proof.RefLayers.lean ====
/-
  The reference program's three layers, each as the layer function of its named stages.

  Each layer of the reference is two dot_generals with the bias row laid over the rows added between them: the
  dense step of the mean-aggregated features and of the features themselves, in the host's grouping, bounded below by
  a scalar zero in the first two layers. The mean aggregate is the stage that divides the neighbour sums by the
  clamped degree; the features are the arguments in layer one and the previous layer's stage after that.
-/
import proofs.«112400_j15479062135292_1_alg».proof.Proof.Gen.ReferenceIdeal.Read
import proofs.«112400_j15479062135292_1_alg».proof.Proof.LibSageMeanLayer

noncomputable section

namespace Cert.ReferenceIdeal.RefValue

open Cert.ReferenceIdeal Cert.ReferenceIdeal.Gen Cert.ReferenceIdeal.Read Idealize.ShloMosaic

variable (x0 : FVec Ideal S100000x128 .f32) (x1 : IVec S2x1600000 32) (x2 : FVec Ideal S128x128 .f32) (x3 : FVec Ideal S128 .f32)
  (x4 x5 : FVec Ideal S128x128 .f32) (x6 : FVec Ideal S128 .f32) (x7 : FVec Ideal S128x128 .f32) (x8 : FVec Ideal S128x40 .f32)
  (x9 : FVec Ideal S40 .f32) (x10 : FVec Ideal S128x40 .f32)

/-- Layer one: the rectified dense step of the mean aggregate of the features and of the features. -/
theorem layer1 : val_main_v28 (F := Ideal) x0 x1 x2 x3 x4
    = Cert.SageLayer.act (a := 100000) (k := 128) (n := 128) (val_main_v21 (F := Ideal) x0 x1) x0 x2 x4
        (val_main_v23 (F := Ideal) x3) := by
  unfold val_main_v28 val_main_v27 val_main_v25 val_main_v26 val_main_v22 val_main_v24 val_main_call0_v0 val_main_call0_cst
  exact Cert.SageLayer.host_act (a := 100000) (k := 128) (n := 128) dot_S100000x128_S128x128_S100000x128_1_0_0_1_n_n
    rfl rfl rfl rfl rfl rfl (val_main_v21 (F := Ideal) x0 x1) x0 x2 x4 (val_main_v23 (F := Ideal) x3)
    bcast_S1x128_S100000x128_0_1 bcast_S_S100000x128

/-- Layer two, over layer one's stage. -/
theorem layer2 : val_main_v53 (F := Ideal) x0 x1 x2 x3 x4 x5 x6 x7
    = Cert.SageLayer.act (a := 100000) (k := 128) (n := 128) (val_main_v46 (F := Ideal) x0 x1 x2 x3 x4)
        (val_main_v28 (F := Ideal) x0 x1 x2 x3 x4) x5 x7 (val_main_v48 (F := Ideal) x6) := by
  unfold val_main_v53 val_main_v52 val_main_v50 val_main_v51 val_main_v47 val_main_v49 val_main_call1_v0 val_main_call1_cst
  exact Cert.SageLayer.host_act (a := 100000) (k := 128) (n := 128) dot_S100000x128_S128x128_S100000x128_1_0_0_1_n_n
    rfl rfl rfl rfl rfl rfl (val_main_v46 (F := Ideal) x0 x1 x2 x3 x4) (val_main_v28 (F := Ideal) x0 x1 x2 x3 x4) x5 x7
    (val_main_v48 (F := Ideal) x6) bcast_S1x128_S100000x128_0_1 bcast_S_S100000x128

/-- Layer three, over layer two's stage, without the rectifier. -/
theorem layer3 : val_main_v77 (F := Ideal) x0 x1 x2 x3 x4 x5 x6 x7 x8 x9 x10
    = Cert.SageLayer.pre (a := 100000) (k := 128) (n := 40) (val_main_v71 (F := Ideal) x0 x1 x2 x3 x4 x5 x6 x7)
        (val_main_v53 (F := Ideal) x0 x1 x2 x3 x4 x5 x6 x7) x8 x10 (val_main_v73 (F := Ideal) x9) := by
  unfold val_main_v77 val_main_v75 val_main_v76 val_main_v72 val_main_v74
  exact Cert.SageLayer.host_pre (a := 100000) (k := 128) (n := 40) dot_S100000x128_S128x40_S100000x40_1_0_0_1_n_n
    rfl rfl rfl rfl rfl rfl (val_main_v71 (F := Ideal) x0 x1 x2 x3 x4 x5 x6 x7)
    (val_main_v53 (F := Ideal) x0 x1 x2 x3 x4 x5 x6 x7) x8 x10 (val_main_v73 (F := Ideal) x9) bcast_S1x40_S100000x40_0_1

end Cert.ReferenceIdeal.RefValue

end
-- ==== Proof.Bridge.lean ====
/-
  The kernel's layers are the reference's stages.

  Both programs gather rows through the same source column, add them through the same target column into zeros, and
  count the in-degrees the same way: those parts are the same operations of the same arguments. They differ in three
  places. The kernel multiplies the neighbour sums by the reciprocal of the clamped degree where the reference divides
  by the clamped degree: equal because the degree is a real number. The kernel lays a bias vector out as a row by a
  reshape where the reference uses a broadcast along axis 1: one array. And the kernel adds the bias row after both
  products where the reference adds it between them: one sum, by commutativity and associativity, which the layer
  function already absorbs. So layer by layer, the kernel's function of the features is the reference's stage.
-/
import proofs.«112400_j15479062135292_1_alg».proof.Proof.KernelLayers
import proofs.«112400_j15479062135292_1_alg».proof.Proof.RefLayers

set_option maxRecDepth 16384

noncomputable section

namespace Cert.Bridge

open Idealize.ShloMosaic
open Cert.KernelIdeal.Terms
open Cert.ReferenceIdeal.Read (val_main_v21 val_main_v23 val_main_v28 val_main_v46 val_main_v48 val_main_v53 val_main_v71
  val_main_v73 val_main_v77)

variable (x0 : Feat) (e : Edges) (x2 : FVec Ideal Cert.KernelIdeal.S128x128 .f32) (x3 : FVec Ideal Cert.KernelIdeal.S128 .f32)
  (x4 x5 : FVec Ideal Cert.KernelIdeal.S128x128 .f32) (x6 : FVec Ideal Cert.KernelIdeal.S128 .f32) (x7 : FVec Ideal Cert.KernelIdeal.S128x128 .f32)
  (x8 : FVec Ideal Cert.KernelIdeal.S128x40 .f32) (x9 : FVec Ideal Cert.KernelIdeal.S40 .f32) (x10 : FVec Ideal Cert.KernelIdeal.S128x40 .f32)

/-- A bias vector of 128 entries as a row: the reshape is the broadcast along axis 1. -/
theorem row128_eq (b : FVec Ideal Cert.KernelIdeal.S128 .f32) : row128 b = val_main_v23 (F := Ideal) b := by
  unfold row128 val_main_v23
  exact Cert.Dense.row_cast_eq_bcast (n := 128) b _ _

/-- The same for the second bias vector's stage. -/
theorem row128_eq' (b : FVec Ideal Cert.KernelIdeal.S128 .f32) : row128 b = val_main_v48 (F := Ideal) b := by
  unfold row128 val_main_v48
  exact Cert.Dense.row_cast_eq_bcast (n := 128) b _ _

/-- A bias vector of 40 entries as a row. -/
theorem row40_eq (b : FVec Ideal Cert.KernelIdeal.S40 .f32) : row40 b = val_main_v73 (F := Ideal) b := by
  unfold row40 val_main_v73
  exact Cert.Dense.row_cast_eq_bcast (n := 40) b _ _

/-- The divided neighbour sums of the node features are the reference's stage: the same operations. -/
theorem mean1 : aggDiv x0 (srcVec e) (dstVec e) = val_main_v21 (F := Ideal) x0 e := rfl

/-- Layer one. -/
theorem layer1 : layerA x0 e x2 x3 x4 = val_main_v28 (F := Ideal) x0 e x2 x3 x4 := by
  rw [Cert.ReferenceIdeal.RefValue.layer1]
  unfold layerA
  rw [agg_eq_div, mean1, row128_eq]

/-- The divided neighbour sums of layer one's stage are the reference's stage. -/
theorem mean2 : aggDiv (val_main_v28 (F := Ideal) x0 e x2 x3 x4) (srcVec e) (dstVec e)
    = val_main_v46 (F := Ideal) x0 e x2 x3 x4 := rfl

/-- Layer two, over layer one's stage. -/
theorem layer2 : layerA (val_main_v28 (F := Ideal) x0 e x2 x3 x4) e x5 x6 x7
    = val_main_v53 (F := Ideal) x0 e x2 x3 x4 x5 x6 x7 := by
  rw [Cert.ReferenceIdeal.RefValue.layer2]
  unfold layerA
  rw [agg_eq_div, mean2, row128_eq']

/-- The divided neighbour sums of layer two's stage are the reference's stage. -/
theorem mean3 : aggDiv (val_main_v53 (F := Ideal) x0 e x2 x3 x4 x5 x6 x7) (srcVec e) (dstVec e)
    = val_main_v71 (F := Ideal) x0 e x2 x3 x4 x5 x6 x7 := rfl

/-- Layer three, over layer two's stage. -/
theorem layer3 : layerC (val_main_v53 (F := Ideal) x0 e x2 x3 x4 x5 x6 x7) e x8 x9 x10
    = val_main_v77 (F := Ideal) x0 e x2 x3 x4 x5 x6 x7 x8 x9 x10 := by
  rw [Cert.ReferenceIdeal.RefValue.layer3]
  unfold layerC
  rw [agg_eq_div, mean3, row40_eq]

/-- The three layers of the kernel are the reference's last stage. -/
theorem net : layerC (layerA (layerA x0 e x2 x3 x4) e x5 x6 x7) e x8 x9 x10
    = val_main_v77 (F := Ideal) x0 e x2 x3 x4 x5 x6 x7 x8 x9 x10 := by
  rw [layer1 x0 e x2 x3 x4, layer2 x0 e x2 x3 x4 x5 x6 x7, layer3 x0 e x2 x3 x4 x5 x6 x7 x8 x9 x10]

end Cert.Bridge

end
-- ==== Proof.lean ====
/-
  A three-layer graph network with mean aggregation: the tiled kernel program against its whole-array reference,
  on the extended reals.

  The network has 100000 nodes with 128 features and 1600000 directed edges. A layer sends node features X to

      rectify ( mean(X) Wl + bl + X Wr ),     mean(X)(i, .) = (sum over the edges e landing on i of X(source of e, .)) / max(deg i, 1),

  with the rectifier left out in the last layer, which has 40 output columns. The reference computes each layer on
  whole arrays. The kernel program computes the sums and the degrees with the same host operations, multiplies the sums
  by the reciprocal 1 / max(deg, 1) computed once, and runs the two products, the bias and the rectifier in a tiled
  step over 25 blocks of 4000 rows, with the operands rounded to bfloat16 on the way into the matrix unit.

  On the extended reals the two agree without any appeal to the inputs being finite: rounding to another format is
  the identity; the matrix unit's product into zero and the host's dot_general are the same sum; an entry of the
  dense step only reads its own row, so the 25 blocks are the blocks of the whole-array function and they cover it;
  adding the bias row last or between the two products is the same sum; a reshape of a bias vector to a row is its
  broadcast; and, since a degree is a finite sum of ones and so a real number, multiplying any extended real by
  1 / max(deg, 1) is dividing it by max(deg, 1). Nothing was rewritten when the kernel was idealized, so that part of
  the claim is empty. Each program terminates without a fault and leaves its arguments as launched.
-/
import proofs.«112400_j15479062135292_1_alg».proof.Defs
import proofs.«112400_j15479062135292_1_alg».proof.Proof.Gen.Kernel
import proofs.«112400_j15479062135292_1_alg».proof.Proof.KernelFrameP
import proofs.«112400_j15479062135292_1_alg».proof.Proof.Gen.KernelIdeal
import proofs.«112400_j15479062135292_1_alg».proof.Proof.KernelIdealFrameP
import proofs.«112400_j15479062135292_1_alg».proof.Proof.Gen.ReferenceIdeal
import proofs.«112400_j15479062135292_1_alg».proof.Proof.Gen.Pre_finite_inputs
import proofs.«112400_j15479062135292_1_alg».proof.Proof.Gen.ReferenceIdeal.Run
import proofs.«112400_j15479062135292_1_alg».proof.Proof.Gen.ReferenceIdeal.Read
import proofs.«112400_j15479062135292_1_alg».proof.Proof.KernelValue
import proofs.«112400_j15479062135292_1_alg».proof.Proof.Bridge
import Idealize.ShloMosaic.Adequacy
import Idealize.ShloMosaic.Init

noncomputable section

namespace Cert.Proof

open Idealize.ShloMosaic Idealize.SL.Sem

/-- The kernel as printed terminates without a fault and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, the idealized kernel ends with its result at the three layers of
    the arguments and the reference with its result at its last stage of them: one function. -/
theorem algebraic : Cert.algebraic_KernelIdeal_ReferenceIdeal := by
  intro m ρ m' ρ' _ hagree
  refine ⟨_, Cert.KernelIdeal.NetValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v77_eq, e0, e1, e2, e3, e4, e5, e6, e7, e8, e9, e10]
  exact (Cert.Bridge.net _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
